-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2048 : Shape := ⟨2, ![50000, 2048]⟩
abbrev S2x1600000 : Shape := ⟨2, ![2, 1600000]⟩
abbrev S2048x64 : Shape := ⟨2, ![2048, 64]⟩
abbrev S64 : Shape := ⟨1, ![64]⟩
abbrev S64x64 : Shape := ⟨2, ![64, 64]⟩
abbrev S_ : Shape := ⟨0, ![]⟩

class Facts : Prop where
  bcast_S_S50000x2048 : S_.BroadcastsInDim S50000x2048 (![] : Fin 0 → Fin S50000x2048.rank)
  reducesTo_S50000x2048_S_d0_1 : S50000x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x2048 .f32) (main_arg1 : IVec S2x1600000 32) (main_arg2 : FVec F S2048x64 .f32) (main_arg3 : FVec F S64 .f32) (main_arg4 : FVec F S64x64 .f32) (main_arg5 : FVec F S64 .f32) : IVec S_ 1 :=
  let main_v0 : FVec F S50000x2048 .f32 := Host.absf main_arg0
  let main_cst : FVec F S_ .f32 := constant S_ .f32 0x7F800000#32
  let main_v1 : FVec F S50000x2048 .f32 := broadcastInDim S50000x2048 ![] bcast_S_S50000x2048 main_cst
  let main_v2 : IVec S50000x2048 1 := cmpf .olt main_v0 main_v1
  let main_c : IVec S_ 1 := constantI S_ 1 1#1
  let main_v3 : IVec S_ 1 := (fun x v => Host.reduce IntOp.andi x v reducesTo_S50000x2048_S_d0_1 h_S_) main_v2 main_c
  let main_v4 : FVec F S2048x64 .f32 := Host.absf main_arg2
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x2048 : Shape := ⟨2, ![50000, 2048]⟩
abbrev S2x1600000 : Shape := ⟨2, ![2, 1600000]⟩
abbrev S2048x64 : Shape := ⟨2, ![2048, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1000x2048 : Shape := ⟨2, ![1000, 2048]⟩
abbrev S1000x64 : Shape := ⟨2, ![1000, 64]⟩
abbrev S1650000x64 : Shape := ⟨2, ![1650000, 64]⟩
abbrev S1x64 : Shape := ⟨2, ![1, 64]⟩
abbrev S10000x64 : Shape := ⟨2, ![10000, 64]⟩

abbrev nBuf : Space → Nat
  | .hbm => 86
  | .vmem => 14
  | .smem => 0
  | _ => 0

abbrev bufTy : (tb : Table) → Fin (tcTables nBuf tb) → BufTy
  | .hbm, ⟨0, _⟩ => ⟨S50000x2048, .f32⟩
  | .hbm, ⟨1, _⟩ => ⟨S2x1600000, .i32⟩
  | .hbm, ⟨2, _⟩ => ⟨S2048x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S1650000, .i32⟩
  | .hbm, ⟨22, _⟩ => ⟨S1650000, .i1⟩
  | .hbm, ⟨23, _⟩ => ⟨S_, .i32⟩
  | .hbm, ⟨24, _⟩ => ⟨S1650000, .i32⟩
  | .hbm, ⟨25, _⟩ => ⟨S1650000, .i32⟩
  | .hbm, ⟨26, _⟩ => ⟨S1650000, .i32⟩
  | .hbm, ⟨27, _⟩ => ⟨S1650000x1, .i32⟩
  | .hbm, ⟨28, _⟩ => ⟨S1650000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S1650000x1, .f32⟩
  | .hbm, ⟨40, _⟩ => ⟨S50000x64, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000x64, .f32⟩
  | .hbm, ⟨50, _⟩ => ⟨S1650000x64, .f32⟩
  | .hbm, ⟨51, _⟩ => ⟨S1650000x64, .f32⟩
  | .hbm, ⟨52, _⟩ => ⟨S_, .f32⟩
  | .hbm, ⟨53, _⟩ => ⟨S50000x64, .f32⟩
  | .hbm, ⟨54, _⟩ => ⟨S1650000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S1650000, .i32⟩
  | .hbm, ⟨65, _⟩ => ⟨S1650000, .i1⟩
  | .hbm, ⟨66, _⟩ => ⟨S_, .i32⟩
  | .hbm, ⟨67, _⟩ => ⟨S1650000, .i32⟩
  | .hbm, ⟨68, _⟩ => ⟨S1650000, .i32⟩
  | .hbm, ⟨69, _⟩ => ⟨S1650000, .i32⟩
  | .hbm, ⟨70, _⟩ => ⟨S1650000x1, .i32⟩
  | .hbm, ⟨71, _⟩ => ⟨S1650000x64, .f32⟩
  | .hbm, ⟨72, _⟩ => ⟨S1650000x64, .f32⟩
  | .hbm, ⟨73, _⟩ => ⟨S1650000x64, .f32⟩
  | .hbm, ⟨74, _⟩ => ⟨S_, .f32⟩
  | .hbm, ⟨75, _⟩ => ⟨S50000x64, .f32⟩
  | .hbm, ⟨76, _⟩ => ⟨S1650000x1, .i32⟩
  | .hbm, ⟨77, _⟩ => ⟨S50000x64, .f32⟩
  | .hbm, ⟨78, _⟩ => ⟨S1x64, .f32⟩
  | .hbm, ⟨79, _⟩ => ⟨S50000x64, .f32⟩
  | .hbm, ⟨80, _⟩ => ⟨S50000x64, .f32⟩
  | .hbm, ⟨81, _⟩ => ⟨S_, .f32⟩
  | .hbm, ⟨82, _⟩ => ⟨S50000x64, .f32⟩
  | .hbm, ⟨83, _⟩ => ⟨S50000x64, .f32⟩
  | .hbm, ⟨84, _⟩ => ⟨S1x64, .f32⟩
  | .hbm, ⟨85, _⟩ => ⟨S64, .f32⟩
  | .local _ .vmem, ⟨0, _⟩ => ⟨S1000x2048, .f32⟩
  | .local _ .vmem, ⟨1, _⟩ => ⟨S1000x2048, .f32⟩
  | .local _ .vmem, ⟨2, _⟩ => ⟨S2048x64, .f32⟩
  | .local _ .vmem, ⟨3, _⟩ => ⟨S1000x64, .f32⟩
  | .local _ .vmem, ⟨4, _⟩ => ⟨S1000x64, .f32⟩
  | .local _ .vmem, ⟨5, _⟩ => ⟨S10000x64, .f32⟩
  | .local _ .vmem, ⟨6, _⟩ => ⟨S10000x64, .f32⟩
  | .local _ .vmem, ⟨7, _⟩ => ⟨S64x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | _, _ => ⟨S50000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v12 : BitVec 1 := Scalar.cmpi .eq arg0 c4_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S1000x64_S1000x64_0_0 : ∀ a, (![0, 0] : Fin 2 → Nat) a + S1000x64.size a ≤ S1000x64.size a
  h_S1000x64 : 0 < S1000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  reduces_S10000x64_S64 : S10000x64.Reduces [0] S64
  shapeCasts_S64_S1x64 : S64.ShapeCasts S1x64
  shapeCasts_S1x64_S64 : S1x64.ShapeCasts S64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1000x2048_S2048x64_S1000x64_1_0_0_1_n_n_wf : DotDims.WF S1000x2048 S2048x64 S1000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S50000x2048.size a
  hwx0_0 : ∀ i : grid0.Coords, EltTy.bits .f32 = 32 ∨ (Rect.block (s := S50000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x64.size a ≤ S50000x64.size a
  hwx0_2 : ∀ i : grid0.Coords, EltTy.bits .f32 = 32 ∨ (Rect.block (s := S50000x64) S1000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v61) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S1x64.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S50000x2048 : Shape := ⟨2, ![50000, 2048]⟩
abbrev S2x1600000 : Shape := ⟨2, ![2, 1600000]⟩
abbrev S2048x64 : Shape := ⟨2, ![2048, 64]⟩
abbrev S64 : Shape := ⟨1, ![64]⟩
abbrev S64x64 : Shape := ⟨2, ![64, 64]⟩
abbrev S50000x64 : Shape := ⟨2, ![50000, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S1x64 : Shape := ⟨2, ![1, 64]⟩

abbrev nBuf : Space → Nat
  | .hbm => 123
  | .vmem => 0
  | .smem => 0
  | _ => 0

abbrev bufTy : (tb : Table) → Fin (tcTables nBuf tb) → BufTy
  | .hbm, ⟨0, _⟩ => ⟨S50000x2048, .f32⟩
  | .hbm, ⟨1, _⟩ => ⟨S2x1600000, .i32⟩
  | .hbm, ⟨2, _⟩ => ⟨S2048x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000x64, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S1650000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1650000, .i32⟩
  | .hbm, ⟨23, _⟩ => ⟨S1650000, .i1⟩
  | .hbm, ⟨24, _⟩ => ⟨S_, .i32⟩
  | .hbm, ⟨25, _⟩ => ⟨S1650000, .i32⟩
  | .hbm, ⟨26, _⟩ => ⟨S1650000, .i32⟩
  | .hbm, ⟨27, _⟩ => ⟨S1650000, .i32⟩
  | .hbm, ⟨28, _⟩ => ⟨S1650000x1, .i32⟩
  | .hbm, ⟨29, _⟩ => ⟨S1650000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000x64, .f32⟩
  | .hbm, ⟨49, _⟩ => ⟨S1650000x1, .f32⟩
  | .hbm, ⟨50, _⟩ => ⟨S1650000x64, .f32⟩
  | .hbm, ⟨51, _⟩ => ⟨S1650000x64, .f32⟩
  | .hbm, ⟨52, _⟩ => ⟨S_, .f32⟩
  | .hbm, ⟨53, _⟩ => ⟨S50000x64, .f32⟩
  | .hbm, ⟨54, _⟩ => ⟨S1650000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S50000, .i32⟩
  | .hbm, ⟨64, _⟩ => ⟨S1x1600000, .i32⟩
  | .hbm, ⟨65, _⟩ => ⟨S1600000, .i32⟩
  | .hbm, ⟨66, _⟩ => ⟨S1650000, .i32⟩
  | .hbm, ⟨67, _⟩ => ⟨S1x1600000, .i32⟩
  | .hbm, ⟨68, _⟩ => ⟨S1600000, .i32⟩
  | .hbm, ⟨69, _⟩ => ⟨S1650000, .i32⟩
  | .hbm, ⟨70, _⟩ => ⟨S_, .f32⟩
  | .hbm, ⟨71, _⟩ => ⟨S1650000, .f32⟩
  | .hbm, ⟨72, _⟩ => ⟨S_, .f32⟩
  | .hbm, ⟨73, _⟩ => ⟨S50000, .f32⟩
  | .hbm, ⟨74, _⟩ => ⟨S1650000x1, .i32⟩
  | .hbm, ⟨75, _⟩ => ⟨S50000, .f32⟩
  | .hbm, ⟨76, _⟩ => ⟨S50000, .f32⟩
  | .hbm, ⟨77, _⟩ => ⟨S_, .i32⟩
  | .hbm, ⟨78, _⟩ => ⟨S1650000, .i32⟩
  | .hbm, ⟨79, _⟩ => ⟨S1650000, .i1⟩
  | .hbm, ⟨80, _⟩ => ⟨S_, .i32⟩
  | .hbm, ⟨81, _⟩ => ⟨S1650000, .i32⟩
  | .hbm, ⟨82, _⟩ => ⟨S1650000, .i32⟩
  | .hbm, ⟨83, _⟩ => ⟨S1650000, .i32⟩
  | .hbm, ⟨84, _⟩ => ⟨S1650000x1, .i32⟩
  | .hbm, ⟨85, _⟩ => ⟨S1650000, .f32⟩
  | .hbm, ⟨86, _⟩ => ⟨S_, .i32⟩
  | .hbm, ⟨87, _⟩ => ⟨S1650000, .i32⟩
  | .hbm, ⟨88, _⟩ => ⟨S1650000, .i1⟩
  | .hbm, ⟨89, _⟩ => ⟨S_, .i32⟩
  | .hbm, ⟨90, _⟩ => ⟨S1650000, .i32⟩
  | .hbm, ⟨91, _⟩ => ⟨S1650000, .i32⟩
  | .hbm, ⟨92, _⟩ => ⟨S1650000, .i32⟩
  | .hbm, ⟨93, _⟩ => ⟨S1650000x1, .i32⟩
  | .hbm, ⟨94, _⟩ => ⟨S1650000, .f32⟩
  | .hbm, ⟨95, _⟩ => ⟨S1650000, .f32⟩
  | .hbm, ⟨96, _⟩ => ⟨S_, .i32⟩
  | .hbm, ⟨97, _⟩ => ⟨S1650000, .i32⟩
  | .hbm, ⟨98, _⟩ => ⟨S1650000, .i1⟩
  | .hbm, ⟨99, _⟩ => ⟨S_, .i32⟩
  | .hbm, ⟨100, _⟩ => ⟨S1650000, .i32⟩
  | .hbm, ⟨101, _⟩ => ⟨S1650000, .i32⟩
  | .hbm, ⟨102, _⟩ => ⟨S1650000, .i32⟩
  | .hbm, ⟨103, _⟩ => ⟨S1650000x1, .i32⟩
  | .hbm, ⟨104, _⟩ => ⟨S1650000x64, .f32⟩
  | .hbm, ⟨105, _⟩ => ⟨S1650000x1, .f32⟩
  | .hbm, ⟨106, _⟩ => ⟨S1650000x64, .f32⟩
  | .hbm, ⟨107, _⟩ => ⟨S1650000x64, .f32⟩
  | .hbm, ⟨108, _⟩ => ⟨S_, .f32⟩
  | .hbm, ⟨109, _⟩ => ⟨S50000x64, .f32⟩
  | .hbm, ⟨110, _⟩ => ⟨S1650000x1, .i32⟩
  | .hbm, ⟨111, _⟩ => ⟨S50000x64, .f32⟩
  | .hbm, ⟨112, _⟩ => ⟨S1x64, .f32⟩
  | .hbm, ⟨113, _⟩ => ⟨S50000x64, .f32⟩
  | .hbm, ⟨114, _⟩ => ⟨S50000x64, .f32⟩
  | .hbm, ⟨115, _⟩ => ⟨S_, .f32⟩
  | .hbm, ⟨116, _⟩ => ⟨S50000x64, .f32⟩
  | .hbm, ⟨117, _⟩ => ⟨S50000x64, .f32⟩
  | .hbm, ⟨118, _⟩ => ⟨S_, .f32⟩
  | .hbm, ⟨119, _⟩ => ⟨S64, .f32⟩
  | .hbm, ⟨120, _⟩ => ⟨S_, .f32⟩
  | .hbm, ⟨121, _⟩ => ⟨S64, .f32⟩
  | .hbm, ⟨122, _⟩ => ⟨S64, .f32⟩
  | _, _ => ⟨S50000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_cst_8 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_c_12 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_13 : Ref sig .tc := ⟨.hbm, 96, rfl⟩
abbrev main_v73 : Ref sig .tc := ⟨.hbm, 97, rfl⟩
abbrev main_v74 : Ref sig .tc := ⟨.hbm, 98, rfl⟩
abbrev main_c_14 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_call1_cst : Ref sig .tc := ⟨.hbm, 115, rfl⟩
abbrev main_call1_v0 : Ref sig .tc := ⟨.hbm, 116, rfl⟩
abbrev main_v89 : Ref sig .tc := ⟨.hbm, 117, rfl⟩
abbrev main_cst_16 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  dot_S50000x2048_S2048x64_S50000x64_1_0_0_1_n_n_wf : DotDims.WF S50000x2048 S2048x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x64_S50000x64_1_0_0_1_n_n_wf : DotDims.WF S50000x64 S64x64 S50000x64 [1] [0] [0] [1] [] []

variable [Facts₀]

def dot_S50000x2048_S2048x64_S50000x64_1_0_0_1_n_n : DotDims S50000x2048 S2048x64 S50000x64 where
  lhsContracting := [1]
  rhsContracting := [0]
  lhsNonContracting := [0]
  rhsNonContracting := [1]
  lhsBatch := []
  rhsBatch := []
  wf := dot_S50000x2048_S2048x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Reg0.lean ====
/-
  Region 0 of the program: the first layer's dense product, a [50000, 2048] array times a [2048, 64] weight matrix, computed 1000 rows at a time over a grid of 50 points.
  Everything here is stated at a parameter `V`, the contents of the TensorCore's buffers when the region is
  entered, and for any float instance.  The body reads the whole row block and the whole weight matrix, and stores
  one whole block of the product; so after the body the output's staging buffer holds the product of the two input
  blocks, whatever it held before, and the inputs' buffers are unchanged.
-/
import proofs.«176339_j67035849556597_1_alg».proof.Proof.Gen.Kernel.Launch
import proofs.«176339_j67035849556597_1_alg».proof.Proof.Gen.Kernel.Skeleton
import proofs.«176339_j67035849556597_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole weight matrix at every point (it is fetched once; its block
    index never moves). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1000x2048 := Rect.unit (s := S1000x2048) ![0, 0] S1000x2048.size inb_S1000x2048_S1000x2048_0_0
abbrev rW : Rect S2048x64 := Rect.unit (s := S2048x64) ![0, 0] S2048x64.size inb_S2048x64_S2048x64_0_0
abbrev rO : Rect S1000x64 := Rect.unit (s := S1000x64) ![0, 0] S1000x64.size inb_S1000x64_S1000x64_0_0

/-- What the body leaves in the output's staging buffer: its one whole-block store, the product of the two
    input blocks. -/
def out_2 (x0 : Vec F S1000x2048 .f32) (x1 : Vec F S2048x64 .f32) : Vec F S1000x64 .f32 :=
  View.canon [⟨rO, k0_pay1 (View.ld x0 rX) (View.ld x1 rW)⟩]

/-- The one store covers the whole block. -/
theorem cover_2 (p0 : Vec F S1000x64 .f32) (y : S1000x64.Idx) :
    ∃ pc ∈ ([⟨rO, p0⟩] : List (View.Piece (Elt F) S1000x64 .f32)), y ∈ pc.1.set :=
  View.cover_of_tiled [⟨rO, p0⟩] S1000x64.size (by rfl) y

set_option maxHeartbeats 1000000 in
/-- The body on whole staging memrefs: the inputs' at contents `x0`, `x1`, the output's at anything.  It ends with
    the inputs' as they were and the output's at `out_2 x0 x1`. -/
theorem sound_kernel (c : Dev nD) (E : Set ℕ) (i : grid0.Coords) (arg1 : Memref sig .tc .vmem S1000x2048 .f32) (harg1 : arg1.IsWhole)
    (arg2 : Memref sig .tc .vmem S2048x64 .f32) (harg2 : arg2.IsWhole) (arg3 : Memref sig .tc .vmem S1000x64 .f32) (harg3 : arg3.IsWhole)
    (x0 : Vec F S1000x2048 .f32) (x1 : Vec F S2048x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The pipeline's proof data on core `c`: the arrays as the region finds them; after the body at point `t` each
    input's buffer at its block and the output's at the product of the two input blocks; the invariant the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.Reg1.lean ====
/-
  Region 1 of the program: the second layer's dense product, a [50000, 64] array times a [64, 64] weight matrix, computed 10000 rows at a time over a grid of 5 points.
  Everything here is stated at a parameter `V`, the contents of the TensorCore's buffers when the region is
  entered, and for any float instance.  The body reads the whole row block and the whole weight matrix, and stores
  one whole block of the product; so after the body the output's staging buffer holds the product of the two input
  blocks, whatever it held before, and the inputs' buffers are unchanged.
-/
import proofs.«176339_j67035849556597_1_alg».proof.Proof.Gen.Kernel.Launch
import proofs.«176339_j67035849556597_1_alg».proof.Proof.Gen.Kernel.Skeleton
import proofs.«176339_j67035849556597_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole weight matrix at every point (it is fetched once; its block
    index never moves). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S10000x64 := Rect.unit (s := S10000x64) ![0, 0] S10000x64.size inb_S10000x64_S10000x64_0_0
abbrev rW : Rect S64x64 := Rect.unit (s := S64x64) ![0, 0] S64x64.size inb_S64x64_S64x64_0_0
abbrev rO : Rect S10000x64 := Rect.unit (s := S10000x64) ![0, 0] S10000x64.size inb_S10000x64_S10000x64_0_0

/-- What the body leaves in the output's staging buffer: its one whole-block store, the product of the two
    input blocks. -/
def out_2 (x0 : Vec F S10000x64 .f32) (x1 : Vec F S64x64 .f32) : Vec F S10000x64 .f32 :=
  View.canon [⟨rO, k1_pay1 (View.ld x0 rX) (View.ld x1 rW)⟩]

/-- The one store covers the whole block. -/
theorem cover_2 (p0 : Vec F S10000x64 .f32) (y : S10000x64.Idx) :
    ∃ pc ∈ ([⟨rO, p0⟩] : List (View.Piece (Elt F) S10000x64 .f32)), y ∈ pc.1.set :=
  View.cover_of_tiled [⟨rO, p0⟩] S10000x64.size (by rfl) y

set_option maxHeartbeats 1000000 in
/-- The body on whole staging memrefs: the inputs' at contents `x0`, `x1`, the output's at anything.  It ends with
    the inputs' as they were and the output's at `out_2 x0 x1`. -/
theorem sound_kernel (c : Dev nD) (E : Set ℕ) (i : grid1.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The pipeline's proof data on core `c`: the arrays as the region finds them; after the body at point `t` each
    input's buffer at its block and the output's at the product of the two input blocks; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out_2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out_2 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.Reg2.lean ====
/-
  Region 2 of the program: the mean over the 50000 rows of a [50000, 64] array, computed over a grid of 5 points,
  10000 rows at a time, with an accumulator row [1, 64] that the kernel keeps in a scratch buffer from point to point.
  At the first point the body zeroes the accumulator; at every point it adds the block's 64 column sums to it; at
  the last point it stores the accumulator times the constant 1/50000 into the output's one block, which is written
  back there and nowhere else.  So the accumulator after point n is a recursion over the points, the output window
  is idle at all points but the last, and the output array ends holding the last accumulator times the constant.
  Everything is stated at a parameter `V`, the contents of the TensorCore's buffers when the region is entered, and
  for any float instance; the pipeline's invariant is the scoped rest before the first point and afterwards the
  scratch at the accumulator beside the other scoped buffers and the generator register.
-/
import proofs.«176339_j67035849556597_1_alg».proof.Proof.Gen.Kernel.Launch
import proofs.«176339_j67035849556597_1_alg».proof.Proof.Gen.Kernel.Skeleton
import proofs.«176339_j67035849556597_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The mean-pool region: a column sum carried in a scratch row across five grid points

Region 2 walks a 50000×64 array in five blocks of 10000 rows. A 1×64 scratch row is set to zero at the first
point, every point adds its block's column sums to it, and the last point stores the row scaled by 1/50000 into the
1×64 output block. The output window is written back at the last point only and is left untouched at the others.
Everything here is stated at a parameter `V`: the TensorCore's buffer contents when the region is entered. -/

variable (V : (c : Dev nD) → (b : Ref sig .tc) → Buf (Elt F) ((c : Thread nD τ).loc b))

/-! ## The two conditions of the body, over the grid -/

/-- "This is the first point": the coordinate compared with zero, as the body computes it. -/
abbrev cond2_0 (i : grid2.Coords) : Prop :=
  (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last point": the coordinate compared with four. -/
abbrev cond2_1 (i : grid2.Coords) : Prop := k2_cond2 i = 1#1
/-- It holds at point 4 only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

/-- The input window is live at every point. -/
theorem liveAt2_0 : ∀ t : Fin cfg2.N, cfg2.idle 0 (grid2.coords t) = false := by decide +kernel
/-- Away from the last point the body stores nothing into the output block, -/
theorem idleAt2_1 : ∀ t : Fin cfg2.N, ¬cond2_1 (grid2.coords t) → cfg2.idle 1 (grid2.coords t) = true := by decide +kernel
/-- and the block is not written back there. -/
theorem noFlush2_1 : ∀ t : Fin cfg2.N, ¬cond2_1 (grid2.coords t) → (cfg2.win 1).flush t = false := by decide +kernel
/-- At the last point the output block is stored. -/
theorem liveAt2_1 : ∀ t : Fin cfg2.N, cond2_1 (grid2.coords t) → cfg2.idle 1 (grid2.coords t) = false := by decide +kernel

/-! ## The memrefs the body is called with -/

abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
/-- The scratch row: a whole scoped buffer of the kernel's own. -/
abbrev scM2 : Memref sig .tc .vmem S1x64 .f32 := Memref.whole cc2_scratch0

/-- The zero offsets of a whole-shape rectangle of rank two. -/
theorem hz2 : (![0, 0] : Fin 2 → Nat) = fun _ => 0 := funext fun a => by fin_cases a <;> rfl

/-! ## The body's triple, case by case

In each case the body is run on whole memrefs: the input block at contents `x0`, the scratch row at `xs0` (at
anything at the first point, where it is zeroed before it is read), the output block at `xi1` where the body leaves
it alone and at anything where it stores it. A store through the whole 1×64 rectangle reads back as its payload,
whatever was there before. -/

set_option maxHeartbeats 1000000 in
/-- First point: the scratch row is zeroed, then the block's column sums are added. -/
theorem run_first (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : cond2_0 i) (hc1 : ¬cond2_1 i)
    (x0 : Vec F S10000x64 .f32) (xi1 : Vec F S1x64 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k2_pay2 (k2_pay1 (F := F)) x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero hz2 inb_S1x64_S1x64_0_0 y⟩)]
  rw [View.canon_cons_unit_zero hz2]
  sl_unfold_run_names
  rw [View.readCov_unit_zero _ hz2, View.readAt_eq_ld, harg1.read_unread, View.ld_unit_zero hz2]

set_option maxHeartbeats 1000000 in
/-- A middle point: the block's column sums are added to what the scratch row held. -/
theorem run_mid (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : ¬cond2_0 i) (hc1 : ¬cond2_1 i)
    (x0 : Vec F S10000x64 .f32) (xi1 : Vec F S1x64 .f32) (xs0 : Vec F S1x64 .f32) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1
            ∗ owns (c : Thread nD τ) arg3 fullShare (k2_pay2 xs0 x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero hz2 inb_S1x64_S1x64_0_0 y⟩)]
  rw [View.canon_cons_unit_zero hz2]
  simp only [View.readAt_eq_ld, harg3.read_unread, harg1.read_unread, View.ld_unit_zero (S := S1x64) hz2, View.ld_unit_zero (S := S10000x64) hz2]

set_option maxHeartbeats 1000000 in
/-- Last point: the sums are added, and the output block is the row scaled by the reciprocal of the row count. -/
theorem run_last (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : ¬cond2_0 i) (hc1 : cond2_1 i)
    (x0 : Vec F S10000x64 .f32) (xs0 : Vec F S1x64 .f32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k2_pay3 (k2_pay2 xs0 x0))
            ∗ owns (c : Thread nD τ) arg3 fullShare (k2_pay2 xs0 x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz2 inb_S1x64_S1x64_0_0 y⟩)]
    rw [View.canon_unit_zero hz2]
    sl_unfold_run_names
    rw [View.readCov_unit_zero _ hz2]
    simp only [View.readAt_eq_ld, harg3.read_unread, harg1.read_unread, View.ld_unit_zero (S := S1x64) hz2, View.ld_unit_zero (S := S10000x64) hz2]
  iexists _; isplitr
  swap; · iexact HS0
  ipureintro
  sl_unfold_run_names
  rw [View.read_writes_eq_canon _ _ _ (fun y => ⟨_, List.mem_cons_self, View.mem_set_unit_zero hz2 inb_S1x64_S1x64_0_0 y⟩)]
  rw [View.canon_cons_unit_zero hz2]
  simp only [View.readAt_eq_ld, harg3.read_unread, harg1.read_unread, View.ld_unit_zero (S := S1x64) hz2, View.ld_unit_zero (S := S10000x64) hz2]

/-! ## The blocks and the running sum -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data whose array is `V`'s
    and whose body leaves the block in place: the window is uncut, never idle, and fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scratch row after point `n`: zero plus the column sums of blocks `0 … n`, added in that order. -/
def acc2 (c : Dev nD) : (n : ℕ) → n < cfg2.N → Vec F S1x64 .f32
  | 0, h => k2_pay2 (k2_pay1 (F := F)) (iblk2 V c 0 ⟨0, h⟩)
  | n + 1, h => k2_pay2 (acc2 c n (Nat.lt_of_succ_lt h)) (iblk2 V c 0 ⟨n + 1, h⟩)

/-- At the first point the sum starts from the zero row. -/
theorem acc2_zero (c : Dev nD) (t : Fin cfg2.N) (hz : t.val = 0) :
    acc2 V c t.val t.isLt = k2_pay2 (k2_pay1 (F := F)) (iblk2 V c 0 t) := by
  obtain ⟨n, hn⟩ := t
  cases n with
  | zero => rfl
  | succ n => exact absurd hz (Nat.succ_ne_zero _)

/-- At a later point it adds this point's block to what the point before left. -/
theorem acc2_pos (c : Dev nD) (t : Fin cfg2.N) (hz : t.val ≠ 0) :
    acc2 V c t.val t.isLt = k2_pay2 (acc2 V c (t.val - 1) (Nat.lt_of_le_of_lt (Nat.sub_le _ _) t.isLt)) (iblk2 V c 0 t) := by
  obtain ⟨n, hn⟩ := t
  cases n with
  | zero => exact absurd rfl hz
  | succ n => rfl

/-! ## The invariant -/

/-- The core's scoped buffers that are no staging buffer of this region, split at the region's own scratch row: the
    row at some contents, the remainder (the other regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The remainder: every scoped buffer that is neither this region's staging buffer nor its scratch row, at some contents. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the scratch row as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA; rw [scopedRest2_split]; simp only [scM2, owns_whole]; try rfl

/-- The region invariant before position `n`: before the first point what the launch hands over; afterwards the scratch
    row at the running sum the point before left, the remainder untouched, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ rest2 (F := F) c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ rest2 (F := F) c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ rest2 (F := F) c) ∗ (∃ r, prngReg c r)) := by
  cases n with
  | zero => exact absurd rfl hz
  | succ n => rfl

/-! ## The proof data -/

/-- The proof data of the region on core `c`: the arrays as the region finds them; after the body the input's buffer
    at its block and the output's at the scaled running sum (read only where the window is live: the last point);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = k2_pay3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point. The input's memref holds its block; the point is the first, a middle one or the last, and
    that case's triple applies; the invariant hands the body the scratch row (at anything at the first point, at the
    running sum afterwards) and takes it back at this point's sum; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = Phi2 V c (t.val + 1) t.isLt from rfl, Phi2_succ]
  have hN : t.val < 5 := lt_of_lt_of_eq t.isLt (show cfg2.N = 5 from N_2)
  rw [show (dat2 V c).leavesExact 0 t = owns (c : Thread nD τ) (ms2_0 t) fullShare ((dat2 V c).after 0 t) from by
    unfold Dat.leavesExact; rw [liveAt2_0 t], after2_0]
  by_cases h4 : t.val = 4
  · have hc0 : ¬cond2_0 (grid2.coords t) := fun h => by have := (hcond2_0 t).mp h; omega
    have hc1 : cond2_1 (grid2.coords t) := (hcond2_1 t).mpr h4
    have hz : t.val ≠ 0 := by omega
    rw [show (dat2 V c).leavesExact 1 t = owns (c : Thread nD τ) (ms2_1 t) fullShare ((dat2 V c).after 1 t) from by
      unfold Dat.leavesExact; rw [liveAt2_1 t hc1], after2_1]
    rw [acc2_pos V c t hz]
    rw [Phi2_castSucc V c t, Phi2_pos V c _ _ hz]
    iintro ⟨⟨⟨HS0, Hr⟩, Hg⟩, Ho, ⟨%d0, H0⟩, ⟨%d1, H1⟩⟩
    iapply (run_last c Set.univ (grid2.coords t) _ _ _ _ _ _ hc0 hc1 (iblk2 V c 0 t) _ _)
    isplitl [H0]; · iexact H0
    isplitl [H1]; · iexists _; iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexact H1
  · have hc1 : ¬cond2_1 (grid2.coords t) := fun h => h4 ((hcond2_1 t).mp h)
    rw [Dat.leavesExact_idle (dat2 V c) 1 t (idleAt2_1 t hc1) (noFlush2_1 t hc1)]
    by_cases hz : t.val = 0
    · have hc0 : cond2_0 (grid2.coords t) := (hcond2_0 t).mpr hz
      rw [acc2_zero V c t hz]
      rw [Phi2_castSucc V c t, Phi2_zero V c _ _ hz, PhiA2_eq]
      iintro ⟨⟨⟨HS0, Hr⟩, Hg⟩, Ho, ⟨%d0, H0⟩, ⟨%d1, H1⟩⟩
      iapply (run_first c Set.univ (grid2.coords t) _ _ _ _ _ _ hc0 hc1 (iblk2 V c 0 t) _ _)
      isplitl [H0]; · iexact H0
      isplitl [H1]; · iexact H1
      isplitl [HS0]; · iexact HS0
      iintro ⟨H0, H1, HS0⟩
      isplitl [HS0 Hr Hg]
      · isplitr [Hg]
        · isplitl [HS0]; · iexact HS0
          iexact Hr
        iexact Hg
      isplitl [Ho]; · iexact Ho
      isplitl [H0]; · iexact H0
      iexists _; iexact H1
    · have hc0 : ¬cond2_0 (grid2.coords t) := fun h => hz ((hcond2_0 t).mp h)
      rw [acc2_pos V c t hz]
      rw [Phi2_castSucc V c t, Phi2_pos V c _ _ hz]
      iintro ⟨⟨⟨HS0, Hr⟩, Hg⟩, Ho, ⟨%d0, H0⟩, ⟨%d1, H1⟩⟩
      iapply (run_mid c Set.univ (grid2.coords t) _ _ _ _ _ _ hc0 hc1 (iblk2 V c 0 t) _ _ _)
      isplitl [H0]; · iexact H0
      isplitl [H1]; · iexact H1
      isplitl [HS0]; · iexact HS0
      iintro ⟨H0, H1, HS0⟩
      isplitl [HS0 Hr Hg]
      · isplitr [Hg]
        · isplitl [HS0]; · iexact HS0
          iexact Hr
        iexact Hg
      isplitl [Ho]; · iexact Ho
      isplitl [H0]; · iexact H0
      iexists _; iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives it back: the scratch row's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS0, Hr⟩, Hg⟩
  isplitr [Hg]
  · isplitl [HS0]
    · iexists _; iexact HS0
    iexact Hr
  iexact Hg

/-- The same after the last point. -/
theorem hout2 (c : Dev nD) : (dat2 V c).Φ (Fin.last _) ⊢ Pipeline.ΦA spec2 c :=
  Phi2_out V c _ (by rw [Fin.val_last]; have : cfg2.N = 5 := N_2; omega)

/-! ## The arrays after the region -/

/-- The input array is never written: after the region it holds what the region found. -/
theorem arr2_in (c : Dev nD) : (dat2 V c).arrAt 0 cfg2.N = V c (Pipeline.arrRef spec2 0) :=
  ((dat2 V c).arrAt_in 0 rfl _).trans (A_eq2 V c 0)

theorem four_lt_N2 : 4 < cfg2.N := by have : cfg2.N = 5 := N_2; omega

/-- The output's block is the whole 1×64 array, at block index (0, 0), at every point. -/
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- What the output array ends holding: the sum over all five blocks, scaled. -/
abbrev out2 (c : Dev nD) : S1x64.Idx → Elt F .f32 := k2_pay3 (acc2 V c 4 four_lt_N2)

/-- The one point that writes the output back (the last) writes that row. -/
theorem flushed2_1_eq (c : Dev nD) (t : Fin cfg2.N) (hf : (cfg2.win 1).flush t = true) :
    (dat2 V c).flushed 1 t = ((cfg2.win 1).blk t).view.read (Elt F) (out2 V c) := by
  have h4 : t.val = 4 := by
    have := (flush2_1 t).mp hf
    have hN : t.val < 5 := lt_of_lt_of_eq t.isLt (show cfg2.N = 5 from N_2)
    omega
  show (cfg2.win 1).cut (grid2.coords t) ((dat2 V c).after 1 t) = _
  rw [after2_1]
  obtain ⟨e0, e1⟩ := idx2_1 t
  funext j
  show k2_pay3 (acc2 V c t.val t.isLt) j = k2_pay3 (acc2 V c 4 four_lt_N2) (((cfg2.win 1).blk t).view.emb j)
  have hj : ((cfg2.win 1).blk t).view.emb j = j := by
    funext a; apply Fin.ext
    match a with
    | ⟨0, _⟩ => show win2_1.index t (0 : Fin 2) * 1 + 1 * (j 0).val = (j 0).val; omega
    | ⟨1, _⟩ => show win2_1.index t (1 : Fin 2) * 64 + 1 * (j 1).val = (j 1).val; omega
  rw [hj]
  obtain ⟨n, hn⟩ := t
  dsimp only at h4
  subst h4
  rfl

/-- An index of the output array is in point `t`'s block iff each coordinate is in the block's range on its axis. -/
theorem mem_blk2_1 (t : Fin cfg2.N) (i : S1x64.Idx) :
    i ∈ ((cfg2.win 1).blk t).view.set ↔ ∀ a : Fin 2, win2_1.index t a * S1x64.size a ≤ (i a).val ∧ (i a).val < win2_1.index t a * S1x64.size a + S1x64.size a := by
  show i ∈ ((View.whole main_v62).slice (win2_1.rect t)).set ↔ _
  rw [View.set_slice_whole, Rect.mem_set_unit]
  exact Iff.rfl

/-- Every index of the output array is in the last point's block. -/
theorem cover2_1 (i : S1x64.Idx) : ∃ t : Fin cfg2.N, (cfg2.win 1).flush t = true ∧ i ∈ ((cfg2.win 1).blk t).view.set := by
  refine ⟨t2_4, (flush2_1 t2_4).mpr rfl, ?_⟩
  rw [mem_blk2_1]
  obtain ⟨e0, e1⟩ := idx2_1 t2_4
  have h0 : (i 0).val < 1 := (i 0).isLt
  have h1 : (i 1).val < 64 := (i 1).isLt
  intro a
  match a with
  | ⟨0, _⟩ => show win2_1.index t2_4 (0 : Fin 2) * 1 ≤ (i 0).val ∧ (i 0).val < win2_1.index t2_4 (0 : Fin 2) * 1 + 1; omega
  | ⟨1, _⟩ => show win2_1.index t2_4 (1 : Fin 2) * 64 ≤ (i 1).val ∧ (i 1).val < win2_1.index t2_4 (1 : Fin 2) * 64 + 64; omega

/-- The output array after the region: the column sums of all 50000 rows, accumulated block by block from zero,
    times the reciprocal of the row count. -/
theorem arr2_out (c : Dev nD) : (dat2 V c).arrAt 1 cfg2.N = out2 V c :=
  (dat2 V c).arrAt_eq_of_cover 1 (out2 V c) (fun t hf => flushed2_1_eq V c t hf) (fun i => cover2_1 i)

end Cert.Kernel.R2

end
-- ==== Proof.K.Run.lean ====
/-
  The whole run of the program on the TensorCores, from the launch to the return.

  @main is nine items: six stretches of host operations and the three kernel regions between them.  The contents of
  the unscoped buffers at each boundary are a fold from the launch memory: a host stretch applies its operations, a
  region replaces its arrays by what its pipeline's write-backs leave and keeps every other buffer.  Every item is a
  segment over the thread state "every unscoped buffer at the boundary's contents, the generator register at some
  state, nothing owed"; the launch theorem for a list of segments then says that every weakly fair execution ends,
  and that the final memory holds, at every unscoped buffer, the last boundary's contents.
-/
import proofs.«176339_j67035849556597_1_alg».proof.Proof.K.Reg0
import proofs.«176339_j67035849556597_1_alg».proof.Proof.K.Reg1
import proofs.«176339_j67035849556597_1_alg».proof.Proof.K.Reg2
import proofs.«176339_j67035849556597_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the first layer's aggregation, bias and rectifier (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (R1.dat (V4 m) c).arrAt w cfg1.N
theorem W5_arr (c : Dev nD) (w : Fin cfg1.W) :
    W5 m c (Proc.devRef .tc (Pipeline.arrRef spec1 w)) = (R1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (R1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the second layer's aggregation, bias and rectifier (region 2's entry). -/
abbrev W6 : Dev nD → Valuation τ sig (Elt F) := fun c => StableHlo.after hostOps2 (W5 m c)
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Pipeline.withArrays spec2 c (W7 m c) fun w => (R2.dat2 (V7 m) c).arrAt w cfg2.N
theorem W8_arr (c : Dev nD) (w : Fin cfg2.W) :
    W8 m c (Proc.devRef .tc (Pipeline.arrRef spec2 w)) = (R2.dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (R2.dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the last host operation (the result's reshape): what the final memory holds. -/
abbrev W9 : Dev nD → Valuation τ sig (Elt F) := fun c => StableHlo.after hostOps3 (W8 m c)

/-! ## The arguments end as launched -/

/-- A buffer that no host stretch writes and that is no region's output array reaches the end as launched. -/
theorem W9_of (c : Dev nD) (r : Ref sig .tc) (h0 : r ∉ hostOps0_W) (h1 : r ∉ hostOps1_W) (h11 : r ∉ hostOps1_1_W)
    (h2 : r ∉ hostOps2_W) (h21 : r ∉ hostOps2_1_W) (h3 : r ∉ hostOps3_W)
    (ha0 : Pipeline.arrRef spec0 2 ≠ r) (ha1 : Pipeline.arrRef spec1 2 ≠ r) (ha2 : Pipeline.arrRef spec2 1 ≠ r)
    (e0 : ∀ w, Pipeline.arrRef spec0 w = r → (cfg0.win w).isOut = false)
    (e1 : ∀ w, Pipeline.arrRef spec1 w = r → (cfg1.win w).isOut = false)
    (e2 : ∀ w, Pipeline.arrRef spec2 w = r → (cfg2.win w).isOut = false) :
    W9 m c (Proc.devRef .tc r) = m ((c : Thread nD τ).loc r) := by
  have s3 : W9 m c (Proc.devRef .tc r) = W8 m c (Proc.devRef .tc r) := StableHlo.after_of_writes_sub hostOps3 _ hostOps3_writes h3
  have s21 : W7 m c (Proc.devRef .tc r) = W6 m c (Proc.devRef .tc r) := StableHlo.after_of_writes_sub hostOps2_1 _ hostOps2_1_writes h21
  have s2 : W6 m c (Proc.devRef .tc r) = W5 m c (Proc.devRef .tc r) := StableHlo.after_of_writes_sub hostOps2 _ hostOps2_writes h2
  have s11 : W4 m c (Proc.devRef .tc r) = W3 m c (Proc.devRef .tc r) := StableHlo.after_of_writes_sub hostOps1_1 _ hostOps1_1_writes h11
  have s1 : W3 m c (Proc.devRef .tc r) = W2 m c (Proc.devRef .tc r) := StableHlo.after_of_writes_sub hostOps1 _ hostOps1_writes h1
  have s0 : W1 m c (Proc.devRef .tc r) = W0 m c (Proc.devRef .tc r) := StableHlo.after_of_writes_sub hostOps0 _ hostOps0_writes h0
  have a2 : W8 m c (Proc.devRef .tc r) = W7 m c (Proc.devRef .tc r) := by
    by_cases hw : ∃ w, Pipeline.arrRef spec2 w = r
    · obtain ⟨w, rfl⟩ := hw
      exact (W8_arr m c w).trans (((R2.dat2 (V7 m) c).arrAt_in w (e2 w rfl) _).trans (R2.A_eq2 (V7 m) c w))
    · exact W8_of_ne m c r fun w e => hw ⟨w, e⟩
  have a1 : W5 m c (Proc.devRef .tc r) = W4 m c (Proc.devRef .tc r) := by
    by_cases hw : ∃ w, Pipeline.arrRef spec1 w = r
    · obtain ⟨w, rfl⟩ := hw
      exact (W5_arr m c w).trans (((R1.dat (V4 m) c).arrAt_in w (e1 w rfl) _).trans (R1.A_eq (V4 m) c w))
    · exact W5_of_ne m c r fun w e => hw ⟨w, e⟩
  have a0 : W2 m c (Proc.devRef .tc r) = W1 m c (Proc.devRef .tc r) := by
    by_cases hw : ∃ w, Pipeline.arrRef spec0 w = r
    · obtain ⟨w, rfl⟩ := hw
      exact (W2_arr m c w).trans (((R0.dat (V1 m) c).arrAt_in w (e0 w rfl) _).trans (R0.A_eq (V1 m) c w))
    · exact W2_of_ne m c r fun w e => hw ⟨w, e⟩
  rw [s3, a2, s21, s2, a1, s11, s1, a0, s0]
theorem W9_main_arg0 (c : Dev nD) : W9 m c (Proc.devRef .tc main_arg0) = m ((c : Thread nD τ).loc main_arg0) :=
  W9_of m c main_arg0 (by decide) (by decide) (by decide) (by decide) (by decide) (by decide) (by decide) (by decide) (by decide)
    (by decide) (by decide) (by decide)
theorem W9_main_arg1 (c : Dev nD) : W9 m c (Proc.devRef .tc main_arg1) = m ((c : Thread nD τ).loc main_arg1) :=
  W9_of m c main_arg1 (by decide) (by decide) (by decide) (by decide) (by decide) (by decide) (by decide) (by decide) (by decide)
    (by decide) (by decide) (by decide)
theorem W9_main_arg2 (c : Dev nD) : W9 m c (Proc.devRef .tc main_arg2) = m ((c : Thread nD τ).loc main_arg2) :=
  W9_of m c main_arg2 (by decide) (by decide) (by decide) (by decide) (by decide) (by decide) (by decide) (by decide) (by decide)
    (by decide) (by decide) (by decide)
theorem W9_main_arg3 (c : Dev nD) : W9 m c (Proc.devRef .tc main_arg3) = m ((c : Thread nD τ).loc main_arg3) :=
  W9_of m c main_arg3 (by decide) (by decide) (by decide) (by decide) (by decide) (by decide) (by decide) (by decide) (by decide)
    (by decide) (by decide) (by decide)
theorem W9_main_arg4 (c : Dev nD) : W9 m c (Proc.devRef .tc main_arg4) = m ((c : Thread nD τ).loc main_arg4) :=
  W9_of m c main_arg4 (by decide) (by decide) (by decide) (by decide) (by decide) (by decide) (by decide) (by decide) (by decide)
    (by decide) (by decide) (by decide)
theorem W9_main_arg5 (c : Dev nD) : W9 m c (Proc.devRef .tc main_arg5) = m ((c : Thread nD τ).loc main_arg5) :=
  W9_of m c main_arg5 (by decide) (by decide) (by decide) (by decide) (by decide) (by decide) (by decide) (by decide) (by decide)
    (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V4 m) c
  | ⟨2, _⟩ => fun c => R2.dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents before the final
    reshape, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`.  Its arrays
    are split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`.  Its arrays
    are split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`.  Its arrays
    are split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : iprop(Pipeline.scopedRest spec2 c ∗ ∃ r, prngReg c r) ⊢ (pdats m 2 c).Φ 0 := by
      have h := R2.hin2 (V7 m) c; unfold Pipeline.ΦA at h; exact h
    iintro ⟨Hp, -, Hr⟩
    iapply h2
    isplitl [Hr]; · iexact Hr
    iexact Hp
  hout c := by
    rw [Pipeline.ownSems0_none]
    have h2 : (pdats m 2 c).Φ (Fin.last _) ⊢ iprop(Pipeline.scopedRest spec2 c ∗ ∃ r, prngReg c r) := by
      have h := R2.hout2 (V7 m) c; unfold Pipeline.ΦA at h; exact h
    refine h2.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]

set_option backward.isDefEq.respectTransparency.types false in
/-- THE RUN.  From any memory `m` with zero counters, every weakly fair execution of @main on the TensorCores
    terminates, nothing faulting, and the final memory holds at every unscoped buffer the last boundary's
    contents `W9 m c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl,
      fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.Kernel.Run

end
-- ==== Proof.KI.Reg0.lean ====
/-
  Region 0 of the program: the first layer's dense product, a [50000, 2048] array times a [2048, 64] weight matrix, computed 1000 rows at a time over a grid of 50 points.
  Everything here is stated at a parameter `V`, the contents of the TensorCore's buffers when the region is
  entered, and for any float instance.  The body reads the whole row block and the whole weight matrix, and stores
  one whole block of the product; so after the body the output's staging buffer holds the product of the two input
  blocks, whatever it held before, and the inputs' buffers are unchanged.
-/
import proofs.«176339_j67035849556597_1_alg».proof.Proof.Gen.KernelIdeal.Launch
import proofs.«176339_j67035849556597_1_alg».proof.Proof.Gen.KernelIdeal.Skeleton
import proofs.«176339_j67035849556597_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole weight matrix at every point (it is fetched once; its block
    index never moves). -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S1000x2048 := Rect.unit (s := S1000x2048) ![0, 0] S1000x2048.size inb_S1000x2048_S1000x2048_0_0
abbrev rW : Rect S2048x64 := Rect.unit (s := S2048x64) ![0, 0] S2048x64.size inb_S2048x64_S2048x64_0_0
abbrev rO : Rect S1000x64 := Rect.unit (s := S1000x64) ![0, 0] S1000x64.size inb_S1000x64_S1000x64_0_0

/-- What the body leaves in the output's staging buffer: its one whole-block store, the product of the two
    input blocks. -/
def out_2 (x0 : Vec F S1000x2048 .f32) (x1 : Vec F S2048x64 .f32) : Vec F S1000x64 .f32 :=
  View.canon [⟨rO, k0_pay1 (View.ld x0 rX) (View.ld x1 rW)⟩]

/-- The one store covers the whole block. -/
theorem cover_2 (p0 : Vec F S1000x64 .f32) (y : S1000x64.Idx) :
    ∃ pc ∈ ([⟨rO, p0⟩] : List (View.Piece (Elt F) S1000x64 .f32)), y ∈ pc.1.set :=
  View.cover_of_tiled [⟨rO, p0⟩] S1000x64.size (by rfl) y

set_option maxHeartbeats 1000000 in
/-- The body on whole staging memrefs: the inputs' at contents `x0`, `x1`, the output's at anything.  It ends with
    the inputs' as they were and the output's at `out_2 x0 x1`. -/
theorem sound_kernel (c : Dev nD) (E : Set ℕ) (i : grid0.Coords) (arg1 : Memref sig .tc .vmem S1000x2048 .f32) (harg1 : arg1.IsWhole)
    (arg2 : Memref sig .tc .vmem S2048x64 .f32) (harg2 : arg2.IsWhole) (arg3 : Memref sig .tc .vmem S1000x64 .f32) (harg3 : arg3.IsWhole)
    (x0 : Vec F S1000x2048 .f32) (x1 : Vec F S2048x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The pipeline's proof data on core `c`: the arrays as the region finds them; after the body at point `t` each
    input's buffer at its block and the output's at the product of the two input blocks; the invariant the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.Reg1.lean ====
/-
  Region 1 of the program: the second layer's dense product, a [50000, 64] array times a [64, 64] weight matrix, computed 10000 rows at a time over a grid of 5 points.
  Everything here is stated at a parameter `V`, the contents of the TensorCore's buffers when the region is
  entered, and for any float instance.  The body reads the whole row block and the whole weight matrix, and stores
  one whole block of the product; so after the body the output's staging buffer holds the product of the two input
  blocks, whatever it held before, and the inputs' buffers are unchanged.
-/
import proofs.«176339_j67035849556597_1_alg».proof.Proof.Gen.KernelIdeal.Launch
import proofs.«176339_j67035849556597_1_alg».proof.Proof.Gen.KernelIdeal.Skeleton
import proofs.«176339_j67035849556597_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block window's staging buffer holds its block at every point. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The weight window's staging buffer holds the whole weight matrix at every point (it is fetched once; its block
    index never moves). -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S10000x64 := Rect.unit (s := S10000x64) ![0, 0] S10000x64.size inb_S10000x64_S10000x64_0_0
abbrev rW : Rect S64x64 := Rect.unit (s := S64x64) ![0, 0] S64x64.size inb_S64x64_S64x64_0_0
abbrev rO : Rect S10000x64 := Rect.unit (s := S10000x64) ![0, 0] S10000x64.size inb_S10000x64_S10000x64_0_0

/-- What the body leaves in the output's staging buffer: its one whole-block store, the product of the two
    input blocks. -/
def out_2 (x0 : Vec F S10000x64 .f32) (x1 : Vec F S64x64 .f32) : Vec F S10000x64 .f32 :=
  View.canon [⟨rO, k1_pay1 (View.ld x0 rX) (View.ld x1 rW)⟩]

/-- The one store covers the whole block. -/
theorem cover_2 (p0 : Vec F S10000x64 .f32) (y : S10000x64.Idx) :
    ∃ pc ∈ ([⟨rO, p0⟩] : List (View.Piece (Elt F) S10000x64 .f32)), y ∈ pc.1.set :=
  View.cover_of_tiled [⟨rO, p0⟩] S10000x64.size (by rfl) y

set_option maxHeartbeats 1000000 in
/-- The body on whole staging memrefs: the inputs' at contents `x0`, `x1`, the output's at anything.  It ends with
    the inputs' as they were and the output's at `out_2 x0 x1`. -/
theorem sound_kernel (c : Dev nD) (E : Set ℕ) (i : grid1.Coords) (arg1 : Memref sig .tc .vmem S10000x64 .f32) (harg1 : arg1.IsWhole)
    (arg2 : Memref sig .tc .vmem S64x64 .f32) (harg2 : arg2.IsWhole) (arg3 : Memref sig .tc .vmem S10000x64 .f32) (harg3 : arg3.IsWhole)
    (x0 : Vec F S10000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out_2 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-- The pipeline's proof data on core `c`: the arrays as the region finds them; after the body at point `t` each
    input's buffer at its block and the output's at the product of the two input blocks; the invariant the scoped
    rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => out_2 (iblk V c 0 t) (iblk V c 1 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = out_2 (iblk V c 0 t) (iblk V c 1 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

/-- The body at any point: the inputs' memrefs hold their blocks, so `sound_kernel` applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.Reg2.lean ====
/-
  Region 2 of the program: the mean over the 50000 rows of a [50000, 64] array, computed over a grid of 5 points,
  10000 rows at a time, with an accumulator row [1, 64] that the kernel keeps in a scratch buffer from point to point.
  At the first point the body zeroes the accumulator; at every point it adds the block's 64 column sums to it; at
  the last point it stores the accumulator times the constant 1/50000 into the output's one block, which is written
  back there and nowhere else.  So the accumulator after point n is a recursion over the points, the output window
  is idle at all points but the last, and the output array ends holding the last accumulator times the constant.
  Everything is stated at a parameter `V`, the contents of the TensorCore's buffers when the region is entered, and
  for any float instance; the pipeline's invariant is the scoped rest before the first point and afterwards the
  scratch at the accumulator beside the other scoped buffers and the generator register.
-/
import proofs.«176339_j67035849556597_1_alg».proof.Proof.Gen.KernelIdeal.Launch
import proofs.«176339_j67035849556597_1_alg».proof.Proof.Gen.KernelIdeal.Skeleton
import proofs.«176339_j67035849556597_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Pipeline.Value
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The mean-pool region: a column sum carried in a scratch row across five grid points

Region 2 walks a 50000×64 array in five blocks of 10000 rows. A 1×64 scratch row is set to zero at the first
point, every point adds its block's column sums to it, and the last point stores the row scaled by 1/50000 into the
1×64 output block. The output window is written back at the last point only and is left untouched at the others.
Everything here is stated at a parameter `V`: the TensorCore's buffer contents when the region is entered. -/

variable (V : (c : Dev nD) → (b : Ref sig .tc) → Buf (Elt F) ((c : Thread nD τ).loc b))

/-! ## The two conditions of the body, over the grid -/

/-- "This is the first point": the coordinate compared with zero, as the body computes it. -/
abbrev cond2_0 (i : grid2.Coords) : Prop :=
  (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)

/-- "This is the last point": the coordinate compared with four. -/
abbrev cond2_1 (i : grid2.Coords) : Prop := k2_cond2 i = 1#1
/-- It holds at point 4 only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

/-- The input window is live at every point. -/
theorem liveAt2_0 : ∀ t : Fin cfg2.N, cfg2.idle 0 (grid2.coords t) = false := by decide +kernel
/-- Away from the last point the body stores nothing into the output block, -/
theorem idleAt2_1 : ∀ t : Fin cfg2.N, ¬cond2_1 (grid2.coords t) → cfg2.idle 1 (grid2.coords t) = true := by decide +kernel
/-- and the block is not written back there. -/
theorem noFlush2_1 : ∀ t : Fin cfg2.N, ¬cond2_1 (grid2.coords t) → (cfg2.win 1).flush t = false := by decide +kernel
/-- At the last point the output block is stored. -/
theorem liveAt2_1 : ∀ t : Fin cfg2.N, cond2_1 (grid2.coords t) → cfg2.idle 1 (grid2.coords t) = false := by decide +kernel

/-! ## The memrefs the body is called with -/

abbrev ms2_0 (t : Fin cfg2.N) : Memref sig .tc .vmem S10000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x64 .f32 := win2_1.stage (cfg2.slots t 1)
abbrev hs2_1 (t : Fin cfg2.N) : (ms2_1 t).IsWhole := hstage2_1 ((cfg2.slots t 1).cast nbuf2_1)
/-- The scratch row: a whole scoped buffer of the kernel's own. -/
abbrev scM2 : Memref sig .tc .vmem S1x64 .f32 := Memref.whole cc2_scratch0

/-- The zero offsets of a whole-shape rectangle of rank two. -/
theorem hz2 : (![0, 0] : Fin 2 → Nat) = fun _ => 0 := funext fun a => by fin_cases a <;> rfl

/-! ## The body's triple, case by case

In each case the body is run on whole memrefs: the input block at contents `x0`, the scratch row at `xs0` (at
anything at the first point, where it is zeroed before it is read), the output block at `xi1` where the body leaves
it alone and at anything where it stores it. A store through the whole 1×64 rectangle reads back as its payload,
whatever was there before. -/

set_option maxHeartbeats 1000000 in
/-- First point: the scratch row is zeroed, then the block's column sums are added. -/
theorem run_first (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : cond2_0 i) (hc1 : ¬cond2_1 i)
    (x0 : Vec F S10000x64 .f32) (xi1 : Vec F S1x64 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k2_pay2 (k2_pay1 (F := F)) x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero hz2 inb_S1x64_S1x64_0_0 y⟩)]
  rw [View.canon_cons_unit_zero hz2]
  sl_unfold_run_names
  rw [View.readCov_unit_zero _ hz2, View.readAt_eq_ld, harg1.read_unread, View.ld_unit_zero hz2]

set_option maxHeartbeats 1000000 in
/-- A middle point: the block's column sums are added to what the scratch row held. -/
theorem run_mid (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : ¬cond2_0 i) (hc1 : ¬cond2_1 i)
    (x0 : Vec F S10000x64 .f32) (xi1 : Vec F S1x64 .f32) (xs0 : Vec F S1x64 .f32) (K : PUnit → sProp 𝕄) :
    iprop(owns (c : Thread nD τ) arg1 fullShare x0 ∗ owns (c : Thread nD τ) arg2 fullShare xi1 ∗ owns (c : Thread nD τ) arg3 fullShare xs0
        ∗ (iprop(owns (c : Thread nD τ) arg1 fullShare x0 ∗ owns (c : Thread nD τ) arg2 fullShare xi1
            ∗ owns (c : Thread nD τ) arg3 fullShare (k2_pay2 xs0 x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%fs0, %hfs0, HS0⟩, Hk⟩
  obtain rfl := harg1.eq_unread hf0; obtain rfl := harg2.eq_unread hf1; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  rw [View.read_writes_eq_canon _ _ _ (fun y => ⟨_, List.mem_cons_self, View.mem_set_unit_zero hz2 inb_S1x64_S1x64_0_0 y⟩)]
  rw [View.canon_cons_unit_zero hz2]
  simp only [View.readAt_eq_ld, harg3.read_unread, harg1.read_unread, View.ld_unit_zero (S := S1x64) hz2, View.ld_unit_zero (S := S10000x64) hz2]

set_option maxHeartbeats 1000000 in
/-- Last point: the sums are added, and the output block is the row scaled by the reciprocal of the row count. -/
theorem run_last (c : Dev nD) (E : Set ℕ) (i : grid2.Coords)
    (arg1 : Memref sig .tc .vmem S10000x64 .f32) (harg1 : arg1.IsWhole)
    (arg2 : Memref sig .tc .vmem S1x64 .f32) (harg2 : arg2.IsWhole)
    (arg3 : Memref sig .tc .vmem S1x64 .f32) (harg3 : arg3.IsWhole)
    (hc0 : ¬cond2_0 i) (hc1 : cond2_1 i)
    (x0 : Vec F S10000x64 .f32) (xs0 : Vec F S1x64 .f32) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k2_pay3 (k2_pay2 xs0 x0))
            ∗ owns (c : Thread nD τ) arg3 fullShare (k2_pay2 xs0 x0)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    rw [View.read_writes_eq_canon _ _ _ (fun y => ⟨_, List.mem_singleton_self _, View.mem_set_unit_zero hz2 inb_S1x64_S1x64_0_0 y⟩)]
    rw [View.canon_unit_zero hz2]
    sl_unfold_run_names
    rw [View.readCov_unit_zero _ hz2]
    simp only [View.readAt_eq_ld, harg3.read_unread, harg1.read_unread, View.ld_unit_zero (S := S1x64) hz2, View.ld_unit_zero (S := S10000x64) hz2]
  iexists _; isplitr
  swap; · iexact HS0
  ipureintro
  sl_unfold_run_names
  rw [View.read_writes_eq_canon _ _ _ (fun y => ⟨_, List.mem_cons_self, View.mem_set_unit_zero hz2 inb_S1x64_S1x64_0_0 y⟩)]
  rw [View.canon_cons_unit_zero hz2]
  simp only [View.readAt_eq_ld, harg3.read_unread, harg1.read_unread, View.ld_unit_zero (S := S1x64) hz2, View.ld_unit_zero (S := S10000x64) hz2]

/-! ## The blocks and the running sum -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's staging buffer holds its block at every point, for any proof data whose array is `V`'s
    and whose body leaves the block in place: the window is uncut, never idle, and fetched at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The scratch row after point `n`: zero plus the column sums of blocks `0 … n`, added in that order. -/
def acc2 (c : Dev nD) : (n : ℕ) → n < cfg2.N → Vec F S1x64 .f32
  | 0, h => k2_pay2 (k2_pay1 (F := F)) (iblk2 V c 0 ⟨0, h⟩)
  | n + 1, h => k2_pay2 (acc2 c n (Nat.lt_of_succ_lt h)) (iblk2 V c 0 ⟨n + 1, h⟩)

/-- At the first point the sum starts from the zero row. -/
theorem acc2_zero (c : Dev nD) (t : Fin cfg2.N) (hz : t.val = 0) :
    acc2 V c t.val t.isLt = k2_pay2 (k2_pay1 (F := F)) (iblk2 V c 0 t) := by
  obtain ⟨n, hn⟩ := t
  cases n with
  | zero => rfl
  | succ n => exact absurd hz (Nat.succ_ne_zero _)

/-- At a later point it adds this point's block to what the point before left. -/
theorem acc2_pos (c : Dev nD) (t : Fin cfg2.N) (hz : t.val ≠ 0) :
    acc2 V c t.val t.isLt = k2_pay2 (acc2 V c (t.val - 1) (Nat.lt_of_le_of_lt (Nat.sub_le _ _) t.isLt)) (iblk2 V c 0 t) := by
  obtain ⟨n, hn⟩ := t
  cases n with
  | zero => exact absurd rfl hz
  | succ n => rfl

/-! ## The invariant -/

/-- The core's scoped buffers that are no staging buffer of this region, split at the region's own scratch row: the
    row at some contents, the remainder (the other regions' staging buffers) unopened. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The remainder: every scoped buffer that is neither this region's staging buffer nor its scratch row, at some contents. -/
abbrev rest2 (c : Dev nD) : sProp 𝕄 :=
  Pipeline.scopedRestBut (Ix := Unit) (Name := ℕ) (U := UR sig nD τ) (Lvl := ℕ) (Val := Elt F) spec2 c [cc2_scratch0]

/-- What the launch hands the region, with the scratch row as a memref owned at some contents. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA; rw [scopedRest2_split]; simp only [scM2, owns_whole]; try rfl

/-- The region invariant before position `n`: before the first point what the launch hands over; afterwards the scratch
    row at the running sum the point before left, the remainder untouched, the generator register at some state. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ rest2 (F := F) c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ rest2 (F := F) c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ rest2 (F := F) c) ∗ (∃ r, prngReg c r)) := by
  cases n with
  | zero => exact absurd rfl hz
  | succ n => rfl

/-! ## The proof data -/

/-- The proof data of the region on core `c`: the arrays as the region finds them; after the body the input's buffer
    at its block and the output's at the scaled running sum (read only where the window is live: the last point);
    the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay3 (acc2 V c t.val t.isLt)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = k2_pay3 (acc2 V c t.val t.isLt) := by dsimp only [dat2]

theorem before2_0 (c : Dev nD) (t : Fin cfg2.N) (d) : (dat2 V c).before 0 t d = iblk2 V c 0 t :=
  before2_0_of V (dat2 V c) (A_eq2 V c 0) (after2_0 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 4800000 in
/-- The body at any point. The input's memref holds its block; the point is the first, a middle one or the last, and
    that case's triple applies; the invariant hands the body the scratch row (at anything at the first point, at the
    running sum afterwards) and takes it back at this point's sum; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [show (dat2 V c).Φ t.succ = Phi2 V c (t.val + 1) t.isLt from rfl, Phi2_succ]
  have hN : t.val < 5 := lt_of_lt_of_eq t.isLt (show cfg2.N = 5 from N_2)
  rw [show (dat2 V c).leavesExact 0 t = owns (c : Thread nD τ) (ms2_0 t) fullShare ((dat2 V c).after 0 t) from by
    unfold Dat.leavesExact; rw [liveAt2_0 t], after2_0]
  by_cases h4 : t.val = 4
  · have hc0 : ¬cond2_0 (grid2.coords t) := fun h => by have := (hcond2_0 t).mp h; omega
    have hc1 : cond2_1 (grid2.coords t) := (hcond2_1 t).mpr h4
    have hz : t.val ≠ 0 := by omega
    rw [show (dat2 V c).leavesExact 1 t = owns (c : Thread nD τ) (ms2_1 t) fullShare ((dat2 V c).after 1 t) from by
      unfold Dat.leavesExact; rw [liveAt2_1 t hc1], after2_1]
    rw [acc2_pos V c t hz]
    rw [Phi2_castSucc V c t, Phi2_pos V c _ _ hz]
    iintro ⟨⟨⟨HS0, Hr⟩, Hg⟩, Ho, ⟨%d0, H0⟩, ⟨%d1, H1⟩⟩
    iapply (run_last c Set.univ (grid2.coords t) _ _ _ _ _ _ hc0 hc1 (iblk2 V c 0 t) _ _)
    isplitl [H0]; · iexact H0
    isplitl [H1]; · iexists _; iexact H1
    isplitl [HS0]; · iexact HS0
    iintro ⟨H0, H1, HS0⟩
    isplitl [HS0 Hr Hg]
    · isplitr [Hg]
      · isplitl [HS0]; · iexact HS0
        iexact Hr
      iexact Hg
    isplitl [Ho]; · iexact Ho
    isplitl [H0]; · iexact H0
    iexact H1
  · have hc1 : ¬cond2_1 (grid2.coords t) := fun h => h4 ((hcond2_1 t).mp h)
    rw [Dat.leavesExact_idle (dat2 V c) 1 t (idleAt2_1 t hc1) (noFlush2_1 t hc1)]
    by_cases hz : t.val = 0
    · have hc0 : cond2_0 (grid2.coords t) := (hcond2_0 t).mpr hz
      rw [acc2_zero V c t hz]
      rw [Phi2_castSucc V c t, Phi2_zero V c _ _ hz, PhiA2_eq]
      iintro ⟨⟨⟨HS0, Hr⟩, Hg⟩, Ho, ⟨%d0, H0⟩, ⟨%d1, H1⟩⟩
      iapply (run_first c Set.univ (grid2.coords t) _ _ _ _ _ _ hc0 hc1 (iblk2 V c 0 t) _ _)
      isplitl [H0]; · iexact H0
      isplitl [H1]; · iexact H1
      isplitl [HS0]; · iexact HS0
      iintro ⟨H0, H1, HS0⟩
      isplitl [HS0 Hr Hg]
      · isplitr [Hg]
        · isplitl [HS0]; · iexact HS0
          iexact Hr
        iexact Hg
      isplitl [Ho]; · iexact Ho
      isplitl [H0]; · iexact H0
      iexists _; iexact H1
    · have hc0 : ¬cond2_0 (grid2.coords t) := fun h => hz ((hcond2_0 t).mp h)
      rw [acc2_pos V c t hz]
      rw [Phi2_castSucc V c t, Phi2_pos V c _ _ hz]
      iintro ⟨⟨⟨HS0, Hr⟩, Hg⟩, Ho, ⟨%d0, H0⟩, ⟨%d1, H1⟩⟩
      iapply (run_mid c Set.univ (grid2.coords t) _ _ _ _ _ _ hc0 hc1 (iblk2 V c 0 t) _ _ _)
      isplitl [H0]; · iexact H0
      isplitl [H1]; · iexact H1
      isplitl [HS0]; · iexact HS0
      iintro ⟨H0, H1, HS0⟩
      isplitl [HS0 Hr Hg]
      · isplitr [Hg]
        · isplitl [HS0]; · iexact HS0
          iexact Hr
        iexact Hg
      isplitl [Ho]; · iexact Ho
      isplitl [H0]; · iexact H0
      iexists _; iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives it back: the scratch row's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS0, Hr⟩, Hg⟩
  isplitr [Hg]
  · isplitl [HS0]
    · iexists _; iexact HS0
    iexact Hr
  iexact Hg

/-- The same after the last point. -/
theorem hout2 (c : Dev nD) : (dat2 V c).Φ (Fin.last _) ⊢ Pipeline.ΦA spec2 c :=
  Phi2_out V c _ (by rw [Fin.val_last]; have : cfg2.N = 5 := N_2; omega)

/-! ## The arrays after the region -/

/-- The input array is never written: after the region it holds what the region found. -/
theorem arr2_in (c : Dev nD) : (dat2 V c).arrAt 0 cfg2.N = V c (Pipeline.arrRef spec2 0) :=
  ((dat2 V c).arrAt_in 0 rfl _).trans (A_eq2 V c 0)

theorem four_lt_N2 : 4 < cfg2.N := by have : cfg2.N = 5 := N_2; omega

/-- The output's block is the whole 1×64 array, at block index (0, 0), at every point. -/
theorem idx2_1 : ∀ t : Fin cfg2.N, win2_1.index t (0 : Fin 2) = 0 ∧ win2_1.index t (1 : Fin 2) = 0 :=
  (by decide +kernel : ∀ t : Fin grid2.N, win2_1.index t (0 : Fin 2) = 0 ∧ win2_1.index t (1 : Fin 2) = 0)

/-- What the output array ends holding: the sum over all five blocks, scaled. -/
abbrev out2 (c : Dev nD) : S1x64.Idx → Elt F .f32 := k2_pay3 (acc2 V c 4 four_lt_N2)

/-- The one point that writes the output back (the last) writes that row. -/
theorem flushed2_1_eq (c : Dev nD) (t : Fin cfg2.N) (hf : (cfg2.win 1).flush t = true) :
    (dat2 V c).flushed 1 t = ((cfg2.win 1).blk t).view.read (Elt F) (out2 V c) := by
  have h4 : t.val = 4 := by
    have := (flush2_1 t).mp hf
    have hN : t.val < 5 := lt_of_lt_of_eq t.isLt (show cfg2.N = 5 from N_2)
    omega
  show (cfg2.win 1).cut (grid2.coords t) ((dat2 V c).after 1 t) = _
  rw [after2_1]
  obtain ⟨e0, e1⟩ := idx2_1 t
  funext j
  show k2_pay3 (acc2 V c t.val t.isLt) j = k2_pay3 (acc2 V c 4 four_lt_N2) (((cfg2.win 1).blk t).view.emb j)
  have hj : ((cfg2.win 1).blk t).view.emb j = j := by
    funext a; apply Fin.ext
    match a with
    | ⟨0, _⟩ => show win2_1.index t (0 : Fin 2) * 1 + 1 * (j 0).val = (j 0).val; omega
    | ⟨1, _⟩ => show win2_1.index t (1 : Fin 2) * 64 + 1 * (j 1).val = (j 1).val; omega
  rw [hj]
  obtain ⟨n, hn⟩ := t
  dsimp only at h4
  subst h4
  rfl

/-- An index of the output array is in point `t`'s block iff each coordinate is in the block's range on its axis. -/
theorem mem_blk2_1 (t : Fin cfg2.N) (i : S1x64.Idx) :
    i ∈ ((cfg2.win 1).blk t).view.set ↔ ∀ a : Fin 2, win2_1.index t a * S1x64.size a ≤ (i a).val ∧ (i a).val < win2_1.index t a * S1x64.size a + S1x64.size a := by
  show i ∈ ((View.whole main_v62).slice (win2_1.rect t)).set ↔ _
  rw [View.set_slice_whole, Rect.mem_set_unit]
  exact Iff.rfl

/-- Every index of the output array is in the last point's block. -/
theorem cover2_1 (i : S1x64.Idx) : ∃ t : Fin cfg2.N, (cfg2.win 1).flush t = true ∧ i ∈ ((cfg2.win 1).blk t).view.set := by
  refine ⟨t2_4, (flush2_1 t2_4).mpr rfl, ?_⟩
  rw [mem_blk2_1]
  obtain ⟨e0, e1⟩ := idx2_1 t2_4
  have h0 : (i 0).val < 1 := (i 0).isLt
  have h1 : (i 1).val < 64 := (i 1).isLt
  intro a
  match a with
  | ⟨0, _⟩ => show win2_1.index t2_4 (0 : Fin 2) * 1 ≤ (i 0).val ∧ (i 0).val < win2_1.index t2_4 (0 : Fin 2) * 1 + 1; omega
  | ⟨1, _⟩ => show win2_1.index t2_4 (1 : Fin 2) * 64 ≤ (i 1).val ∧ (i 1).val < win2_1.index t2_4 (1 : Fin 2) * 64 + 64; omega

/-- The output array after the region: the column sums of all 50000 rows, accumulated block by block from zero,
    times the reciprocal of the row count. -/
theorem arr2_out (c : Dev nD) : (dat2 V c).arrAt 1 cfg2.N = out2 V c :=
  (dat2 V c).arrAt_eq_of_cover 1 (out2 V c) (fun t hf => flushed2_1_eq V c t hf) (fun i => cover2_1 i)

end Cert.KernelIdeal.R2

end
-- ==== Proof.KI.Run.lean ====
/-
  The whole run of the program on the TensorCores, from the launch to the return.

  @main is nine items: six stretches of host operations and the three kernel regions between them.  The contents of
  the unscoped buffers at each boundary are a fold from the launch memory: a host stretch applies its operations, a
  region replaces its arrays by what its pipeline's write-backs leave and keeps every other buffer.  Every item is a
  segment over the thread state "every unscoped buffer at the boundary's contents, the generator register at some
  state, nothing owed"; the launch theorem for a list of segments then says that every weakly fair execution ends,
  and that the final memory holds, at every unscoped buffer, the last boundary's contents.
-/
import proofs.«176339_j67035849556597_1_alg».proof.Proof.KI.Reg0
import proofs.«176339_j67035849556597_1_alg».proof.Proof.KI.Reg1
import proofs.«176339_j67035849556597_1_alg».proof.Proof.KI.Reg2
import proofs.«176339_j67035849556597_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (R0.dat (V1 m) c).arrAt w cfg0.N
theorem W2_arr (c : Dev nD) (w : Fin cfg0.W) :
    W2 m c (Proc.devRef .tc (Pipeline.arrRef spec0 w)) = (R0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the first layer's aggregation, bias and rectifier (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (R1.dat (V4 m) c).arrAt w cfg1.N
theorem W5_arr (c : Dev nD) (w : Fin cfg1.W) :
    W5 m c (Proc.devRef .tc (Pipeline.arrRef spec1 w)) = (R1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (R1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After the second layer's aggregation, bias and rectifier (region 2's entry). -/
abbrev W6 : Dev nD → Valuation τ sig (Elt F) := fun c => StableHlo.after hostOps2 (W5 m c)
abbrev W7 : Dev nD → Valuation τ sig (Elt F) := fun c => StableHlo.after hostOps2_1 (W6 m c)
abbrev V7 : (c : Dev nD) → (b : Ref sig .tc) → Buf (Elt F) ((c : Thread nD τ).loc b) := fun c b => W7 m c b
/-- At region 2's exit. -/
def W8 (c : Dev nD) : Valuation τ sig (Elt F) :=
  Pipeline.withArrays spec2 c (W7 m c) fun w => (R2.dat2 (V7 m) c).arrAt w cfg2.N
theorem W8_arr (c : Dev nD) (w : Fin cfg2.W) :
    W8 m c (Proc.devRef .tc (Pipeline.arrRef spec2 w)) = (R2.dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (R2.dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- After the last host operation (the result's reshape): what the final memory holds. -/
abbrev W9 : Dev nD → Valuation τ sig (Elt F) := fun c => StableHlo.after hostOps3 (W8 m c)

/-! ## The arguments end as launched -/

/-- A buffer that no host stretch writes and that is no region's output array reaches the end as launched. -/
theorem W9_of (c : Dev nD) (r : Ref sig .tc) (h0 : r ∉ hostOps0_W) (h1 : r ∉ hostOps1_W) (h11 : r ∉ hostOps1_1_W)
    (h2 : r ∉ hostOps2_W) (h21 : r ∉ hostOps2_1_W) (h3 : r ∉ hostOps3_W)
    (ha0 : Pipeline.arrRef spec0 2 ≠ r) (ha1 : Pipeline.arrRef spec1 2 ≠ r) (ha2 : Pipeline.arrRef spec2 1 ≠ r)
    (e0 : ∀ w, Pipeline.arrRef spec0 w = r → (cfg0.win w).isOut = false)
    (e1 : ∀ w, Pipeline.arrRef spec1 w = r → (cfg1.win w).isOut = false)
    (e2 : ∀ w, Pipeline.arrRef spec2 w = r → (cfg2.win w).isOut = false) :
    W9 m c (Proc.devRef .tc r) = m ((c : Thread nD τ).loc r) := by
  have s3 : W9 m c (Proc.devRef .tc r) = W8 m c (Proc.devRef .tc r) := StableHlo.after_of_writes_sub hostOps3 _ hostOps3_writes h3
  have s21 : W7 m c (Proc.devRef .tc r) = W6 m c (Proc.devRef .tc r) := StableHlo.after_of_writes_sub hostOps2_1 _ hostOps2_1_writes h21
  have s2 : W6 m c (Proc.devRef .tc r) = W5 m c (Proc.devRef .tc r) := StableHlo.after_of_writes_sub hostOps2 _ hostOps2_writes h2
  have s11 : W4 m c (Proc.devRef .tc r) = W3 m c (Proc.devRef .tc r) := StableHlo.after_of_writes_sub hostOps1_1 _ hostOps1_1_writes h11
  have s1 : W3 m c (Proc.devRef .tc r) = W2 m c (Proc.devRef .tc r) := StableHlo.after_of_writes_sub hostOps1 _ hostOps1_writes h1
  have s0 : W1 m c (Proc.devRef .tc r) = W0 m c (Proc.devRef .tc r) := StableHlo.after_of_writes_sub hostOps0 _ hostOps0_writes h0
  have a2 : W8 m c (Proc.devRef .tc r) = W7 m c (Proc.devRef .tc r) := by
    by_cases hw : ∃ w, Pipeline.arrRef spec2 w = r
    · obtain ⟨w, rfl⟩ := hw
      exact (W8_arr m c w).trans (((R2.dat2 (V7 m) c).arrAt_in w (e2 w rfl) _).trans (R2.A_eq2 (V7 m) c w))
    · exact W8_of_ne m c r fun w e => hw ⟨w, e⟩
  have a1 : W5 m c (Proc.devRef .tc r) = W4 m c (Proc.devRef .tc r) := by
    by_cases hw : ∃ w, Pipeline.arrRef spec1 w = r
    · obtain ⟨w, rfl⟩ := hw
      exact (W5_arr m c w).trans (((R1.dat (V4 m) c).arrAt_in w (e1 w rfl) _).trans (R1.A_eq (V4 m) c w))
    · exact W5_of_ne m c r fun w e => hw ⟨w, e⟩
  have a0 : W2 m c (Proc.devRef .tc r) = W1 m c (Proc.devRef .tc r) := by
    by_cases hw : ∃ w, Pipeline.arrRef spec0 w = r
    · obtain ⟨w, rfl⟩ := hw
      exact (W2_arr m c w).trans (((R0.dat (V1 m) c).arrAt_in w (e0 w rfl) _).trans (R0.A_eq (V1 m) c w))
    · exact W2_of_ne m c r fun w e => hw ⟨w, e⟩
  rw [s3, a2, s21, s2, a1, s11, s1, a0, s0]
theorem W9_main_arg0 (c : Dev nD) : W9 m c (Proc.devRef .tc main_arg0) = m ((c : Thread nD τ).loc main_arg0) :=
  W9_of m c main_arg0 (by decide) (by decide) (by decide) (by decide) (by decide) (by decide) (by decide) (by decide) (by decide)
    (by decide) (by decide) (by decide)
theorem W9_main_arg1 (c : Dev nD) : W9 m c (Proc.devRef .tc main_arg1) = m ((c : Thread nD τ).loc main_arg1) :=
  W9_of m c main_arg1 (by decide) (by decide) (by decide) (by decide) (by decide) (by decide) (by decide) (by decide) (by decide)
    (by decide) (by decide) (by decide)
theorem W9_main_arg2 (c : Dev nD) : W9 m c (Proc.devRef .tc main_arg2) = m ((c : Thread nD τ).loc main_arg2) :=
  W9_of m c main_arg2 (by decide) (by decide) (by decide) (by decide) (by decide) (by decide) (by decide) (by decide) (by decide)
    (by decide) (by decide) (by decide)
theorem W9_main_arg3 (c : Dev nD) : W9 m c (Proc.devRef .tc main_arg3) = m ((c : Thread nD τ).loc main_arg3) :=
  W9_of m c main_arg3 (by decide) (by decide) (by decide) (by decide) (by decide) (by decide) (by decide) (by decide) (by decide)
    (by decide) (by decide) (by decide)
theorem W9_main_arg4 (c : Dev nD) : W9 m c (Proc.devRef .tc main_arg4) = m ((c : Thread nD τ).loc main_arg4) :=
  W9_of m c main_arg4 (by decide) (by decide) (by decide) (by decide) (by decide) (by decide) (by decide) (by decide) (by decide)
    (by decide) (by decide) (by decide)
theorem W9_main_arg5 (c : Dev nD) : W9 m c (Proc.devRef .tc main_arg5) = m ((c : Thread nD τ).loc main_arg5) :=
  W9_of m c main_arg5 (by decide) (by decide) (by decide) (by decide) (by decide) (by decide) (by decide) (by decide) (by decide)
    (by decide) (by decide) (by decide)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => R0.dat (V1 m) c
  | ⟨1, _⟩ => fun c => R1.dat (V4 m) c
  | ⟨2, _⟩ => fun c => R2.dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents before the final
    reshape, the generator register at some state. -/
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`.  Its arrays
    are split out of the unscoped buffers and put back at the exit contents; the generator register goes into the
    pipeline's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`.  Its arrays
    are split out of the unscoped buffers and put back at the exit contents; the generator register goes into the
    pipeline's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`.  Its arrays
    are split out of the unscoped buffers and put back at the exit contents; the generator register goes into the
    pipeline's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h2 : iprop(Pipeline.scopedRest spec2 c ∗ ∃ r, prngReg c r) ⊢ (pdats m 2 c).Φ 0 := by
      have h := R2.hin2 (V7 m) c; unfold Pipeline.ΦA at h; exact h
    iintro ⟨Hp, -, Hr⟩
    iapply h2
    isplitl [Hr]; · iexact Hr
    iexact Hp
  hout c := by
    rw [Pipeline.ownSems0_none]
    have h2 : (pdats m 2 c).Φ (Fin.last _) ⊢ iprop(Pipeline.scopedRest spec2 c ∗ ∃ r, prngReg c r) := by
      have h := R2.hout2 (V7 m) c; unfold Pipeline.ΦA at h; exact h
    refine h2.trans ?_
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .host (hseg hostOps2_1 hostOps2_1_sub hostOps2_1_fresh (W6 m)),
    .region (reg2 m),
    .host (hseg hostOps3 hostOps3_sub hostOps3_fresh (W8 m)) ]

set_option backward.isDefEq.respectTransparency.types false in
/-- THE RUN.  From any memory `m` with zero counters, every weakly fair execution of @main on the TensorCores
    terminates, nothing faulting, and the final memory holds at every unscoped buffer the last boundary's
    contents `W9 m c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W9 m c))
    (hch := ⟨fun _ => .rfl, fun _ => .rfl, fun _ => .rfl, fun _ => .rfl, fun _ => .rfl, fun _ => .rfl, fun _ => .rfl,
      fun _ => .rfl, fun _ => .rfl, fun c => sep_mono .rfl (by iintro ⟨-, H⟩; iexact H)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨Hh, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c)⟩) (run_all m ρ)

end Cert.KernelIdeal.Run

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KI.Val0.lean ====
/-
  What region 0 leaves in its output array, at the exact instance: the whole product.

  Point `t` of the grid multiplies rows 1000·t … 1000·t + 999 of the left array by the whole weight matrix and
  writes the 1000 rows of the result back to the same rows of the output array.  Entry (p, q) of a block's product
  is the sum over k of x[1000·t + p, k] · w[k, q], which is entry (1000·t + p, q) of the product of the whole arrays;
  the 50 blocks of rows tile the output array.  So the array ends holding the product of the whole arrays.
  Only a re-indexing of a sum and 0 + s = s are used: nothing here needs the inputs to be finite.
-/
import proofs.«176339_j67035849556597_1_alg».proof.Proof.KI.Reg0
import proofs.«176339_j67035849556597_1_alg».proof.Proof.LibDotRows
import proofs.«176339_j67035849556597_1_alg».proof.Proof.Gen.ReferenceIdeal.Read
import Idealize.ShloMosaic.Lib.Pipeline.Value
import Idealize.ShloMosaic.Lib.ValueIdx

set_option maxRecDepth 16384

noncomputable section

namespace Cert.KernelIdeal.R0

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The product of the whole arrays, in the spelling of the reference's host operation. -/
abbrev G (x : FVec Ideal S50000x2048 .f32) (w : FVec Ideal S2048x64 .f32) : FVec Ideal S50000x64 .f32 :=
  Host.dotGeneral (F := Ideal) Cert.ReferenceIdeal.dot_S50000x2048_S2048x64_S50000x64_1_0_0_1_n_n none x w

theorem dotR_plain : Cert.ReferenceIdeal.dot_S50000x2048_S2048x64_S50000x64_1_0_0_1_n_n = DotDims.plain 50000 2048 64 := rfl
theorem dotK_plain : dot_S1000x2048_S2048x64_S1000x64_1_0_0_1_n_n = DotDims.plain 1000 2048 64 := rfl

/-- Entry (p, q) of the body's payload on a block `xb` of 1000 rows that starts at row `r0` of `x`, with the whole
    weight matrix, is entry (r0 + p, q) of the product of the whole arrays. -/
theorem block_entry (x : FVec Ideal S50000x2048 .f32) (w : FVec Ideal S2048x64 .f32) (xb : Vec Ideal S1000x2048 .f32) (wb : Vec Ideal S2048x64 .f32)
    (r0 : ℕ) (p : Fin 1000) (q : Fin 64) (hp : r0 + p.val < 50000)
    (hx : ∀ k : Fin 2048, xb (ix2 p k) = x (ix2 ⟨r0 + p.val, hp⟩ k)) (hw : wb = w) :
    k0_pay1 (F := Ideal) xb wb (ix2 p q) = G x w (ix2 ⟨r0 + p.val, hp⟩ q) := by
  subst hw
  have h := Cert.Lib.DotRows.matmul_rows (M := 50000) (K := 2048) (N := 64) (B := 1000) (φ₁ := .f32) (φ₂ := .f32) x wb xb r0 p q hp hx
  unfold k0_pay1
  exact h

theorem hz : (![0, 0] : Fin 2 → Nat) = fun _ => 0 := funext fun a => by fin_cases a <;> rfl

/-- The printed index maps, decided once over the grid: the row-block window and the output window are at block
    row `t`, block column 0; the weight window is always at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the product of the whole arrays as the region finds them. -/
theorem flushed_eq (c : Dev nD) (t : Fin cfg0.N) :
    (dat V c).flushed 2 t = ((cfg0.win 2).blk t).view.read (Elt Ideal) (G (V c main_arg0) (V c main_arg2)) := by
  show (cfg0.win 2).cut (grid0.coords t) ((dat V c).after 2 t) = _
  rw [after_2]
  unfold out_2
  rw [View.canon_unit_zero hz]
  simp only [View.ld_unit_zero (S := S1000x2048) hz, View.ld_unit_zero (S := S2048x64) hz]
  obtain ⟨e0, e1, e2, e3, e4, e5⟩ := idx_facts t
  have hN : t.val < 50 := lt_of_lt_of_eq t.isLt (show cfg0.N = 50 from N_0)
  funext j
  obtain ⟨p, q, rfl⟩ : ∃ (p : Fin 1000) (q : Fin 64), j = ix2 p q := ⟨j 0, j 1, eq_ix2 j⟩
  have hp : t.val * 1000 + p.val < 50000 := by have := p.isLt; omega
  refine (block_entry (V c main_arg0) (V c main_arg2) _ _ (t.val * 1000) p q hp ?_ ?_).trans ?_
  · intro k
    show V c main_arg0 (((cfg0.win 0).blk t).view.emb (ix2 p k)) = V c main_arg0 (ix2 ⟨t.val * 1000 + p.val, hp⟩ k)
    refine congrArg _ ?_
    funext a; apply Fin.ext
    match a with
    | ⟨0, _⟩ => show win0_0.index t (0 : Fin 2) * 1000 + 1 * p.val = t.val * 1000 + p.val; omega
    | ⟨1, _⟩ => show win0_0.index t (1 : Fin 2) * 2048 + 1 * k.val = k.val; omega
  · funext y
    show V c main_arg2 (((cfg0.win 1).blk t).view.emb y) = V c main_arg2 y
    refine congrArg _ ?_
    funext a; apply Fin.ext
    match a with
    | ⟨0, _⟩ => show win0_1.index t (0 : Fin 2) * 2048 + 1 * (y 0).val = (y 0).val; omega
    | ⟨1, _⟩ => show win0_1.index t (1 : Fin 2) * 64 + 1 * (y 1).val = (y 1).val; omega
  · show G (V c main_arg0) (V c main_arg2) (ix2 ⟨t.val * 1000 + p.val, hp⟩ q) = G (V c main_arg0) (V c main_arg2) (((cfg0.win 2).blk t).view.emb (ix2 p q))
    refine congrArg _ ?_
    funext a; apply Fin.ext
    match a with
    | ⟨0, _⟩ => show t.val * 1000 + p.val = win0_2.index t (0 : Fin 2) * 1000 + 1 * p.val; omega
    | ⟨1, _⟩ => show q.val = win0_2.index t (1 : Fin 2) * 64 + 1 * q.val; omega

/-- An index of the output array is in point `t`'s block iff each coordinate is in the block's range. -/
theorem mem_blk (t : Fin cfg0.N) (i : S50000x64.Idx) :
    i ∈ ((cfg0.win 2).blk t).view.set ↔ ∀ a : Fin 2, win0_2.index t a * S1000x64.size a ≤ (i a).val ∧ (i a).val < win0_2.index t a * S1000x64.size a + S1000x64.size a := by
  show i ∈ ((View.whole main_v28).slice (win0_2.rect t)).set ↔ _
  rw [View.set_slice_whole, Rect.mem_set_unit]
  exact Iff.rfl

/-- The blocks of rows tile the output array: row `r` is in the block of point `r / 1000`. -/
theorem cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  let t : Fin cfg0.N := ⟨(i 0).val / 1000, by rw [show cfg0.N = 50 from N_0]; omega⟩
  obtain ⟨e0, e1, e2, e3, e4, e5⟩ := idx_facts t
  have ht : t.val = (i 0).val / 1000 := rfl
  refine ⟨t, flush0_2 t, ?_⟩
  rw [mem_blk]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 64 ≤ (i 1).val ∧ (i 1).val < win0_2.index t (1 : Fin 2) * 64 + 64; omega

/-- THE OUTPUT ARRAY after the region: the product of the whole arrays. -/
theorem final (c : Dev nD) : (dat V c).arrAt 2 cfg0.N = G (V c main_arg0) (V c main_arg2) :=
  (dat V c).arrAt_eq_of_cover 2 (G (V c main_arg0) (V c main_arg2)) (fun t _ => flushed_eq V c t) cover

end Cert.KernelIdeal.R0

end
-- ==== Proof.KI.Val1.lean ====
/-
  What region 1 leaves in its output array, at the exact instance: the whole product.

  Point `t` of the grid multiplies rows 10000·t … 10000·t + 9999 of the left array by the whole weight matrix and
  writes the 10000 rows of the result back to the same rows of the output array.  Entry (p, q) of a block's product
  is the sum over k of x[10000·t + p, k] · w[k, q], which is entry (10000·t + p, q) of the product of the whole arrays;
  the 5 blocks of rows tile the output array.  So the array ends holding the product of the whole arrays.
  Only a re-indexing of a sum and 0 + s = s are used: nothing here needs the inputs to be finite.
-/
import proofs.«176339_j67035849556597_1_alg».proof.Proof.KI.Reg1
import proofs.«176339_j67035849556597_1_alg».proof.Proof.LibDotRows
import proofs.«176339_j67035849556597_1_alg».proof.Proof.Gen.ReferenceIdeal.Read
import Idealize.ShloMosaic.Lib.Pipeline.Value
import Idealize.ShloMosaic.Lib.ValueIdx

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The product of the whole arrays, in the spelling of the reference's host operation. -/
abbrev G (x : FVec Ideal S50000x64 .f32) (w : FVec Ideal S64x64 .f32) : FVec Ideal S50000x64 .f32 :=
  Host.dotGeneral (F := Ideal) Cert.ReferenceIdeal.dot_S50000x64_S64x64_S50000x64_1_0_0_1_n_n none x w

theorem dotR_plain : Cert.ReferenceIdeal.dot_S50000x64_S64x64_S50000x64_1_0_0_1_n_n = DotDims.plain 50000 64 64 := rfl
theorem dotK_plain : dot_S10000x64_S64x64_S10000x64_1_0_0_1_n_n = DotDims.plain 10000 64 64 := rfl

/-- Entry (p, q) of the body's payload on a block `xb` of 10000 rows that starts at row `r0` of `x`, with the whole
    weight matrix, is entry (r0 + p, q) of the product of the whole arrays. -/
theorem block_entry (x : FVec Ideal S50000x64 .f32) (w : FVec Ideal S64x64 .f32) (xb : Vec Ideal S10000x64 .f32) (wb : Vec Ideal S64x64 .f32)
    (r0 : ℕ) (p : Fin 10000) (q : Fin 64) (hp : r0 + p.val < 50000)
    (hx : ∀ k : Fin 64, xb (ix2 p k) = x (ix2 ⟨r0 + p.val, hp⟩ k)) (hw : wb = w) :
    k1_pay1 (F := Ideal) xb wb (ix2 p q) = G x w (ix2 ⟨r0 + p.val, hp⟩ q) := by
  subst hw
  have h := Cert.Lib.DotRows.matmul_rows (M := 50000) (K := 64) (N := 64) (B := 10000) (φ₁ := .f32) (φ₂ := .f32) x wb xb r0 p q hp hx
  unfold k1_pay1
  rw [shapeCast_self]
  exact h

theorem hz : (![0, 0] : Fin 2 → Nat) = fun _ => 0 := funext fun a => by fin_cases a <;> rfl

/-- The printed index maps, decided once over the grid: the row-block window and the output window are at block
    row `t`, block column 0; the weight window is always at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the whole arrays as the region finds them. -/
theorem flushed_eq (c : Dev nD) (t : Fin cfg1.N) :
    (dat V c).flushed 2 t = ((cfg1.win 2).blk t).view.read (Elt Ideal) (G (V c main_v44) (V c main_arg4)) := by
  show (cfg1.win 2).cut (grid1.coords t) ((dat V c).after 2 t) = _
  rw [after_2]
  unfold out_2
  rw [View.canon_unit_zero hz]
  simp only [View.ld_unit_zero (S := S10000x64) hz, View.ld_unit_zero (S := S64x64) hz]
  obtain ⟨e0, e1, e2, e3, e4, e5⟩ := idx_facts t
  have hN : t.val < 5 := lt_of_lt_of_eq t.isLt (show cfg1.N = 5 from N_1)
  funext j
  obtain ⟨p, q, rfl⟩ : ∃ (p : Fin 10000) (q : Fin 64), j = ix2 p q := ⟨j 0, j 1, eq_ix2 j⟩
  have hp : t.val * 10000 + p.val < 50000 := by have := p.isLt; omega
  refine (block_entry (V c main_v44) (V c main_arg4) _ _ (t.val * 10000) p q hp ?_ ?_).trans ?_
  · intro k
    show V c main_v44 (((cfg1.win 0).blk t).view.emb (ix2 p k)) = V c main_v44 (ix2 ⟨t.val * 10000 + p.val, hp⟩ k)
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  · funext y
    show V c main_arg4 (((cfg1.win 1).blk t).view.emb y) = V c main_arg4 y
    refine congrArg _ ?_
    funext a; apply Fin.ext
    match a with
    | ⟨0, _⟩ => show win1_1.index t (0 : Fin 2) * 64 + 1 * (y 0).val = (y 0).val; omega
    | ⟨1, _⟩ => show win1_1.index t (1 : Fin 2) * 64 + 1 * (y 1).val = (y 1).val; omega
  · show G (V c main_v44) (V c main_arg4) (ix2 ⟨t.val * 10000 + p.val, hp⟩ q) = G (V c main_v44) (V c main_arg4) (((cfg1.win 2).blk t).view.emb (ix2 p q))
    refine congrArg _ ?_
    funext a; apply Fin.ext
    match a with
    | ⟨0, _⟩ => show t.val * 10000 + p.val = win1_2.index t (0 : Fin 2) * 10000 + 1 * p.val; omega
    | ⟨1, _⟩ => show q.val = win1_2.index t (1 : Fin 2) * 64 + 1 * q.val; omega

/-- An index of the output array is in point `t`'s block iff each coordinate is in the block's range. -/
theorem mem_blk (t : Fin cfg1.N) (i : S50000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v45).slice (win1_2.rect t)).set ↔ _
  rw [View.set_slice_whole, Rect.mem_set_unit]
  exact Iff.rfl

/-- The blocks of rows tile the output array: row `r` is in the block of point `r / 10000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  let t : Fin cfg1.N := ⟨(i 0).val / 10000, by rw [show cfg1.N = 5 from N_1]; omega⟩
  obtain ⟨e0, e1, e2, e3, e4, e5⟩ := idx_facts t
  have ht : t.val = (i 0).val / 10000 := rfl
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the region: the product of the whole arrays. -/
theorem final (c : Dev nD) : (dat V c).arrAt 2 cfg1.N = G (V c main_v44) (V c main_arg4) :=
  (dat V c).arrAt_eq_of_cover 2 (G (V c main_v44) (V c main_arg4)) (fun t _ => flushed_eq V c t) cover

end Cert.KernelIdeal.R1

end
-- ==== Proof.KI.MeanLaw.lean ====
/-
  The mean over the rows, as pure mathematics on the extended reals.

  The mean-pool kernel sums a [50000, 64] array column by column in five blocks of 10000 rows: an accumulator
  row [1, 64] starts at zero, every block adds its 64 column sums to it, and after the last block the
  accumulator is multiplied by the named constant "inv_50000", which denotes the rational 1/50000; the row is
  then reshaped to [64]. The reference takes the column sum of the whole array from the initial value 0 and
  divides it by the literal 50000.

  At each column q both are (the sum over all 50000 rows of x r q) * (1/50000):
    * a sum over Fin (m * n) is the double sum over the m blocks of n consecutive indices (sum_blocks): only
      the commutative monoid laws of + are used, so it holds at the infinities as well;
    * 0 + s = s;
    * the quotient by the nonzero real 50000 is the product with the real 1/50000 at every extended real.
-/
import proofs.«176339_j67035849556597_1_alg».proof.Proof.Gen.KernelIdeal.Skeleton
import proofs.«176339_j67035849556597_1_alg».proof.ReferenceIdeal
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws
import Idealize.ShloMosaic.PureOps.IdealRules

noncomputable section

namespace Cert.KernelIdeal.MeanLaw

open Cert.KernelIdeal Cert.KernelIdeal.Gen Idealize.ShloMosaic Idealize.ShloMosaic.ValueIdx

open scoped BigOperators

/-! ## A sum over m * n consecutive indices, block by block -/

/-- A sum over Fin (m * n) is the sum over the m blocks of the sums over the n consecutive indices
    n * t, …, n * t + (n - 1) of block t. -/
theorem sum_blocks {M : Type*} [AddCommMonoid M] (m n : ℕ) (f : Fin (m * n) → M) :
    ∑ i, f i = ∑ t : Fin m, ∑ r : Fin n, f ⟨n * t.val + r.val, by
      have ht := t.isLt; have hr := r.isLt
      calc n * t.val + r.val < n * t.val + n := by omega
        _ = n * (t.val + 1) := by ring
        _ ≤ n * m := Nat.mul_le_mul_left _ ht
        _ = m * n := Nat.mul_comm _ _⟩ := by
  rw [← Equiv.sum_comp finProdFinEquiv f, Fintype.sum_prod_type]
  refine Finset.sum_congr rfl fun t _ => Finset.sum_congr rfl fun r _ => congrArg f (Fin.ext ?_)
  show r.val + n * t.val = n * t.val + r.val
  exact Nat.add_comm _ _

/-- The 50000 rows are five blocks of 10000 consecutive rows. -/
theorem sum_rows {M : Type*} [AddCommMonoid M] (f : Fin 50000 → M) :
    ∑ r, f r = ∑ t : Fin 5, ∑ r' : Fin 10000, f ⟨10000 * t.val + r'.val, by omega⟩ :=
  sum_blocks 5 10000 f

/-! ## The two constants -/

/-- The word of 50000.0 denotes the real 50000. -/
theorem ofBits_50000 : Ideal.ofBits .f32 0x47435000#32 = ((50000 : ℝ) : EReal) := by
  simp [Ideal.ofBits, Ideal.ieee, -EReal.coe_mul]; norm_num

/-- The kernel's named reciprocal denotes the rational 1/50000, by the certificate's table. -/
theorem inv_n : Named.named (F := Ideal) Cert.KernelIdeal.κ "inv_50000" (φ := .f32) 0x37A7C5AC#32
    = ((1 / 50000 : ℝ) : EReal) :=
  IdealRules.named_const.ideal_named_scalar _ _ _ _ rfl

/-! ## The kernel's three payloads at an index -/

/-- The accumulator's first value is zero everywhere. -/
theorem pay1_apply (j : S1x64.Idx) : k2_pay1 (F := Ideal) j = 0 := by
  unfold k2_pay1
  rw [shapeCast_self]
  exact Ideal.ofBits_zero_f32

/-- One accumulation step at column q: the accumulator there plus the sum of the block's column q. -/
theorem pay2_apply (acc : Vec Ideal S1x64 .f32) (v : Vec Ideal S10000x64 .f32) (u : Fin 1) (q : Fin 64) :
    k2_pay2 (F := Ideal) acc v (ix2 u q) = acc (ix2 u q) + ∑ r : Fin 10000, v (ix2 r q) := by
  unfold k2_pay2
  rw [shapeCast_self, shapeCast_self, addf_apply, shapeCast_a_1a_apply]
  refine congrArg (acc (ix2 u q) + ·) ?_
  refine (Ideal.multiReduction_add_single (φ := .f32) v 0x00000000#32 reduces_S10000x64_S64 (.inl rfl) rfl (ix1 q)).trans ?_
  exact Finset.sum_congr rfl fun k _ => congrArg v (funext fun a => by
    match a with
    | ⟨0, _⟩ => rfl
    | ⟨1, _⟩ => rfl)

/-- The final scaling at column q: the accumulator there times 1/50000. -/
theorem pay3_apply (acc : Vec Ideal S1x64 .f32) (u : Fin 1) (q : Fin 64) :
    k2_pay3 (F := Ideal) acc (ix2 u q) = acc (ix2 u q) * ((1 / 50000 : ℝ) : EReal) := by
  unfold k2_pay3
  show acc (ix2 u q) * Named.named (F := Ideal) Cert.KernelIdeal.κ "inv_50000" (φ := .f32) 0x37A7C5AC#32 = _
  rw [inv_n]

/-! ## The accumulator after each block -/

/-- The accumulator after block n, over the five row blocks xb: it starts from the zero row, and every
    block adds its column sums. -/
def accOf (xb : Fin 5 → Vec Ideal S10000x64 .f32) : (n : ℕ) → n < 5 → Vec Ideal S1x64 .f32
  | 0, h => k2_pay2 (F := Ideal) (k2_pay1 (F := Ideal)) (xb ⟨0, h⟩)
  | n+1, h => k2_pay2 (F := Ideal) (accOf xb n (Nat.lt_of_succ_lt h)) (xb ⟨n+1, h⟩)

/-- After block n the accumulator holds, at column q, the sum of column q over the blocks 0, …, n. -/
theorem accOf_apply (xb : Fin 5 → Vec Ideal S10000x64 .f32) (n : ℕ) (h : n < 5) (u : Fin 1) (q : Fin 64) :
    accOf xb n h (ix2 u q) = ∑ t : Fin (n + 1), ∑ r : Fin 10000, xb ⟨t.val, by omega⟩ (ix2 r q) := by
  induction n with
  | zero =>
    rw [accOf, pay2_apply, pay1_apply, zero_add, Fin.sum_univ_one]
    rfl
  | succ n ih =>
    rw [accOf, pay2_apply, ih (Nat.lt_of_succ_lt h), Fin.sum_univ_castSucc (n := n + 1)]
    rfl

/-! ## The law -/

/-- The kernel's mean row, reshaped to [64], is the reference's column sum of the whole array divided by
    50000, whenever the five blocks xb are the five consecutive groups of 10000 rows of x. The reference's
    three shape facts are taken as hypotheses, so that the statement meets any spelling of their proofs. -/
theorem mean_law (x : FVec Ideal Cert.ReferenceIdeal.S50000x64 .f32) (xb : Fin 5 → Vec Ideal S10000x64 .f32)
    (hxb : ∀ (t : Fin 5) (r : Fin 10000) (q : Fin 64),
      xb t (ix2 r q) = x (ix2 ⟨10000 * t.val + r.val, by omega⟩ q))
    (hred : Cert.ReferenceIdeal.S50000x64.ReducesTo [0] Cert.ReferenceIdeal.S64)
    (hS : 0 < Cert.ReferenceIdeal.S_.numel)
    (hb : Cert.ReferenceIdeal.S_.BroadcastsInDim Cert.ReferenceIdeal.S64
      (![] : Fin 0 → Fin Cert.ReferenceIdeal.S64.rank)) :
    shapeCast S64 (k2_pay3 (F := Ideal) (accOf xb 4 (by decide))) shapeCasts_S1x64_S64
      = Host.divf (F := Ideal)
          (Host.reduceAdd (F := Ideal) x (constant (F := Ideal) Cert.ReferenceIdeal.S_ .f32 0x00000000#32) hred hS)
          (broadcastInDim Cert.ReferenceIdeal.S64 ![] hb
            (constant (F := Ideal) Cert.ReferenceIdeal.S_ .f32 0x47435000#32)) := by
  funext j
  obtain ⟨q, rfl⟩ : ∃ q : Fin 64, j = ix1 q := ⟨j 0, eq_ix1 j⟩
  rw [shapeCast_1a_a_apply, pay3_apply, accOf_apply]
  rw [hostDivf_apply, hostReduceAdd_apply, broadcastInDim_scalar_apply]
  have hR : Cert.ReferenceIdeal.S50000x64.Reduces [0] Cert.ReferenceIdeal.S64 := by decide
  rw [constant_apply, constant_apply, Ideal.ofBits_zero_f32, ofBits_50000,
    Ideal.div_coe (by norm_num : (50000 : ℝ) ≠ 0), Ideal.hostReduceAdd_single hred hR x 0 (ix1 q), zero_add]
  refine congrArg (· * ((1 / 50000 : ℝ) : EReal)) ?_
  refine Eq.trans ?_ ((sum_rows fun r : Fin 50000 => x (ix2 r q)).symm.trans
    (Finset.sum_congr rfl fun k _ => congrArg x (funext fun a => by
      match a with
      | ⟨0, _⟩ => rfl
      | ⟨1, _⟩ => rfl)))
  exact Finset.sum_congr rfl fun t _ => Finset.sum_congr rfl fun r _ => hxb t r q

end Cert.KernelIdeal.MeanLaw

end
-- ==== Proof.KI.Chains.lean ====
/-
  The kernel program's host operations, read as the reference's stage functions.

  Between its three kernel regions the kernel program applies, on the host, the same operations as the
  reference: the edge list becomes source and target indices (an edge row followed by the self loops 0 … 49999),
  the edge norm is the product of the inverse square roots of the two end points' degrees, and each layer gathers
  the rows of its node features at the wrapped source indices, scales them by the edge norm, scatter-adds them at
  the targets, adds the bias and applies the rectifier x ↦ max x 0. Here each stretch of those operations, run
  from an arbitrary valuation of the kernel program's buffers, is identified with the reference's stage functions of
  the program arguments. The two programs spell their shapes and dimension records by separate definitions of equal
  value; these are identified once, and after that every step is a comparison of two terms of the same operations.
-/
import proofs.«176339_j67035849556597_1_alg».proof.Proof.Gen.KernelIdeal.Launch
import proofs.«176339_j67035849556597_1_alg».proof.Proof.Gen.ReferenceIdeal.Read
import Idealize.ShloMosaic.Lib.StableHlo.Run

noncomputable section

namespace Cert.KernelIdeal.Chains

open Cert.KernelIdeal Cert.KernelIdeal.Gen Idealize.ShloMosaic Idealize.ShloMosaic.TcCoe Idealize.ShloMosaic.StableHlo

/-! ## The two programs' dimension records are equal -/

/-- The gather of rows of a [50000, 64] array at a column of 1650000 indices. -/
theorem gatherRows_eq : gather_S50000x64_S1650000x1_S1650000x64_1_0_n_n_0_1_164
    = Cert.ReferenceIdeal.gather_S50000x64_S1650000x1_S1650000x64_1_0_n_n_0_1_164 := rfl

/-- The scatter-add of 1650000 rows into a [50000, 64] array. -/
theorem scatterRows_eq : scatter_S50000x64_S1650000x1_S1650000x64_1_0_0_1
    = Cert.ReferenceIdeal.scatter_S50000x64_S1650000x1_S1650000x64_1_0_0_1 := rfl

/-- The gather of entries of a [50000] array at a column of 1650000 indices. -/
theorem gatherDeg_eq : gather_S50000_S1650000x1_S1650000_n_0_n_n_0_1_1
    = Cert.ReferenceIdeal.gather_S50000_S1650000x1_S1650000_n_0_n_n_0_1_1 := rfl

/-- The scatter-add of 1650000 entries into a [50000] array. -/
theorem scatterDeg_eq : scatter_S50000_S1650000x1_S1650000_n_0_0_1
    = Cert.ReferenceIdeal.scatter_S50000_S1650000x1_S1650000_n_0_0_1 := rfl

/-! ## The indices and the edge norm -/

section Pre
variable (V : Valuation τ sig (Elt Ideal))
    (x1 : (⟨Cert.ReferenceIdeal.S2x1600000, .i32⟩ : BufTy).Contents (Elt Ideal))

set_option maxHeartbeats 4000000 in
/-- The source indices: row 0 of the edge list followed by the self loops 0 … 49999. -/
theorem pre0_src (h1 : V (Proc.devRef .tc main_arg1) = x1) :
    StableHlo.after (hostOps0 (F := Ideal)) V (Proc.devRef .tc main_v5) = Cert.ReferenceIdeal.Read.val_main_v4 (F := Ideal) x1 := by
  after_results
  rw [h1]
  unfold Cert.ReferenceIdeal.Read.val_main_v4 Cert.ReferenceIdeal.Read.val_main_v3 Cert.ReferenceIdeal.Read.val_main_v2 Cert.ReferenceIdeal.Read.val_main_v1
  rfl

set_option maxHeartbeats 4000000 in
/-- The target indices: row 1 of the edge list followed by the self loops. -/
theorem pre0_dst (h1 : V (Proc.devRef .tc main_arg1) = x1) :
    StableHlo.after (hostOps0 (F := Ideal)) V (Proc.devRef .tc main_v6) = Cert.ReferenceIdeal.Read.val_main_v7 (F := Ideal) x1 := by
  after_results
  rw [h1]
  unfold Cert.ReferenceIdeal.Read.val_main_v7 Cert.ReferenceIdeal.Read.val_main_v6 Cert.ReferenceIdeal.Read.val_main_v5 Cert.ReferenceIdeal.Read.val_main_v1
  rfl

/-- The edge norm from the indices: the degree of a node counts the edges that end at it, and an edge's norm is
    the product of the inverse square roots of the degrees at its (wrapped) source and target. These are the
    operations after the first seven, which only build the indices. -/
theorem norm_of_indices (W : Valuation τ sig (Elt Ideal))
    (w5 : W (Proc.devRef .tc main_v5) = Cert.ReferenceIdeal.Read.val_main_v4 (F := Ideal) x1)
    (w6 : W (Proc.devRef .tc main_v6) = Cert.ReferenceIdeal.Read.val_main_v7 (F := Ideal) x1) :
    StableHlo.after (List.drop 7 (hostOps0 (F := Ideal))) W (Proc.devRef .tc main_v27)
      = Cert.ReferenceIdeal.Read.val_main_v35 (F := Ideal) x1 := by
  simp only [List.drop_succ_cons, List.drop_zero]
  after_results_simp
  rw [w5, w6, gatherDeg_eq, scatterDeg_eq]
  unfold Cert.ReferenceIdeal.Read.val_main_v35 Cert.ReferenceIdeal.Read.val_main_v27 Cert.ReferenceIdeal.Read.val_main_v19 Cert.ReferenceIdeal.Read.val_main_v26 Cert.ReferenceIdeal.Read.val_main_v12 Cert.ReferenceIdeal.Read.val_main_v11 Cert.ReferenceIdeal.Read.val_main_v9 Cert.ReferenceIdeal.Read.val_main_v10 Cert.ReferenceIdeal.Read.val_main_v8 Cert.ReferenceIdeal.Read.val_main_cst Cert.ReferenceIdeal.Read.val_main_cst_0 Cert.ReferenceIdeal.Read.val_main_v18 Cert.ReferenceIdeal.Read.val_main_v17 Cert.ReferenceIdeal.Read.val_main_v14 Cert.ReferenceIdeal.Read.val_main_v16 Cert.ReferenceIdeal.Read.val_main_v13 Cert.ReferenceIdeal.Read.val_main_v15 Cert.ReferenceIdeal.Read.val_main_c Cert.ReferenceIdeal.Read.val_main_c_1 Cert.ReferenceIdeal.Read.val_main_v25 Cert.ReferenceIdeal.Read.val_main_v24 Cert.ReferenceIdeal.Read.val_main_v21 Cert.ReferenceIdeal.Read.val_main_v23 Cert.ReferenceIdeal.Read.val_main_v20 Cert.ReferenceIdeal.Read.val_main_v22 Cert.ReferenceIdeal.Read.val_main_c_2 Cert.ReferenceIdeal.Read.val_main_c_3
  with_reducible rfl

set_option maxHeartbeats 4000000 in
/-- The edge norm, as a column [1650000, 1]: the first seven operations build the indices, the rest the norm. -/
theorem pre0_norm (h1 : V (Proc.devRef .tc main_arg1) = x1) :
    StableHlo.after (hostOps0 (F := Ideal)) V (Proc.devRef .tc main_v27) = Cert.ReferenceIdeal.Read.val_main_v35 (F := Ideal) x1 := by
  have hs : StableHlo.after (hostOps0 (F := Ideal)) V
      = StableHlo.after (List.drop 7 (hostOps0 (F := Ideal))) (StableHlo.after (List.take 7 (hostOps0 (F := Ideal))) V) := by
    rw [← StableHlo.after_append, List.take_append_drop]
  rw [hs]
  refine norm_of_indices x1 _ ?_ ?_
  · simp only [List.take_succ_cons, List.take_zero]
    after_results
    rw [h1]
    unfold Cert.ReferenceIdeal.Read.val_main_v4 Cert.ReferenceIdeal.Read.val_main_v3 Cert.ReferenceIdeal.Read.val_main_v2 Cert.ReferenceIdeal.Read.val_main_v1
    rfl
  · simp only [List.take_succ_cons, List.take_zero]
    after_results
    rw [h1]
    unfold Cert.ReferenceIdeal.Read.val_main_v7 Cert.ReferenceIdeal.Read.val_main_v6 Cert.ReferenceIdeal.Read.val_main_v5 Cert.ReferenceIdeal.Read.val_main_v1
    rfl

end Pre

/-! ## The reference computes its indices and its edge norm twice -/

section Again
variable (x1 : (⟨Cert.ReferenceIdeal.S2x1600000, .i32⟩ : BufTy).Contents (Elt Ideal))

/-- The second layer's source indices are the first layer's. -/
theorem src_again : Cert.ReferenceIdeal.Read.val_main_v49 (F := Ideal) x1 = Cert.ReferenceIdeal.Read.val_main_v4 (F := Ideal) x1 := by
  unfold Cert.ReferenceIdeal.Read.val_main_v49 Cert.ReferenceIdeal.Read.val_main_v48 Cert.ReferenceIdeal.Read.val_main_v47 Cert.ReferenceIdeal.Read.val_main_v46 Cert.ReferenceIdeal.Read.val_main_v4 Cert.ReferenceIdeal.Read.val_main_v3 Cert.ReferenceIdeal.Read.val_main_v2 Cert.ReferenceIdeal.Read.val_main_v1
  with_reducible rfl

/-- The second layer's target indices are the first layer's. -/
theorem dst_again : Cert.ReferenceIdeal.Read.val_main_v52 (F := Ideal) x1 = Cert.ReferenceIdeal.Read.val_main_v7 (F := Ideal) x1 := by
  unfold Cert.ReferenceIdeal.Read.val_main_v52 Cert.ReferenceIdeal.Read.val_main_v51 Cert.ReferenceIdeal.Read.val_main_v50 Cert.ReferenceIdeal.Read.val_main_v46 Cert.ReferenceIdeal.Read.val_main_v7 Cert.ReferenceIdeal.Read.val_main_v6 Cert.ReferenceIdeal.Read.val_main_v5 Cert.ReferenceIdeal.Read.val_main_v1
  with_reducible rfl

/-- The second layer's edge norm is the first layer's. -/
theorem norm_again : Cert.ReferenceIdeal.Read.val_main_v80 (F := Ideal) x1 = Cert.ReferenceIdeal.Read.val_main_v35 (F := Ideal) x1 := by
  unfold Cert.ReferenceIdeal.Read.val_main_v80 Cert.ReferenceIdeal.Read.val_main_v72 Cert.ReferenceIdeal.Read.val_main_v64 Cert.ReferenceIdeal.Read.val_main_v71 Cert.ReferenceIdeal.Read.val_main_v57 Cert.ReferenceIdeal.Read.val_main_v56 Cert.ReferenceIdeal.Read.val_main_v54 Cert.ReferenceIdeal.Read.val_main_v55 Cert.ReferenceIdeal.Read.val_main_v53 Cert.ReferenceIdeal.Read.val_main_cst_7 Cert.ReferenceIdeal.Read.val_main_cst_8 Cert.ReferenceIdeal.Read.val_main_v63 Cert.ReferenceIdeal.Read.val_main_v62 Cert.ReferenceIdeal.Read.val_main_v59 Cert.ReferenceIdeal.Read.val_main_v61 Cert.ReferenceIdeal.Read.val_main_v58 Cert.ReferenceIdeal.Read.val_main_v60 Cert.ReferenceIdeal.Read.val_main_c_9 Cert.ReferenceIdeal.Read.val_main_c_10 Cert.ReferenceIdeal.Read.val_main_v70 Cert.ReferenceIdeal.Read.val_main_v69 Cert.ReferenceIdeal.Read.val_main_v66 Cert.ReferenceIdeal.Read.val_main_v68 Cert.ReferenceIdeal.Read.val_main_v65 Cert.ReferenceIdeal.Read.val_main_v67 Cert.ReferenceIdeal.Read.val_main_c_11 Cert.ReferenceIdeal.Read.val_main_c_12
  rw [src_again, dst_again]
  unfold Cert.ReferenceIdeal.Read.val_main_v35 Cert.ReferenceIdeal.Read.val_main_v27 Cert.ReferenceIdeal.Read.val_main_v19 Cert.ReferenceIdeal.Read.val_main_v26 Cert.ReferenceIdeal.Read.val_main_v12 Cert.ReferenceIdeal.Read.val_main_v11 Cert.ReferenceIdeal.Read.val_main_v9 Cert.ReferenceIdeal.Read.val_main_v10 Cert.ReferenceIdeal.Read.val_main_v8 Cert.ReferenceIdeal.Read.val_main_cst Cert.ReferenceIdeal.Read.val_main_cst_0 Cert.ReferenceIdeal.Read.val_main_v18 Cert.ReferenceIdeal.Read.val_main_v17 Cert.ReferenceIdeal.Read.val_main_v14 Cert.ReferenceIdeal.Read.val_main_v16 Cert.ReferenceIdeal.Read.val_main_v13 Cert.ReferenceIdeal.Read.val_main_v15 Cert.ReferenceIdeal.Read.val_main_c Cert.ReferenceIdeal.Read.val_main_c_1 Cert.ReferenceIdeal.Read.val_main_v25 Cert.ReferenceIdeal.Read.val_main_v24 Cert.ReferenceIdeal.Read.val_main_v21 Cert.ReferenceIdeal.Read.val_main_v23 Cert.ReferenceIdeal.Read.val_main_v20 Cert.ReferenceIdeal.Read.val_main_v22 Cert.ReferenceIdeal.Read.val_main_c_2 Cert.ReferenceIdeal.Read.val_main_c_3
  with_reducible rfl

end Again

/-! ## The rectifier after each layer -/

/-- The first rectifier: the maximum with the zero array. -/
theorem relu_layer1 (W : Valuation τ sig (Elt Ideal)) :
    StableHlo.after (hostOps1_1 (F := Ideal)) W (Proc.devRef .tc main_v44)
      = maximumf (F := Ideal) (s := S50000x64) (φ := .f32) (W (Proc.devRef .tc main_v43))
          (broadcastInDim S50000x64 ![] bcast_S_S50000x64 (constant (F := Ideal) S_ .f32 0x00000000#32)) := by
  after_results_simp
  rfl

/-- The second rectifier. -/
theorem relu_layer2 (W : Valuation τ sig (Elt Ideal)) :
    StableHlo.after (hostOps2_1 (F := Ideal)) W (Proc.devRef .tc main_v61)
      = maximumf (F := Ideal) (s := S50000x64) (φ := .f32) (W (Proc.devRef .tc main_v60))
          (broadcastInDim S50000x64 ![] bcast_S_S50000x64 (constant (F := Ideal) S_ .f32 0x00000000#32)) := by
  after_results_simp
  rfl

/-! ## The two layers -/

section Layers
variable (V : Valuation τ sig (Elt Ideal))
    (x0 : (⟨Cert.ReferenceIdeal.S50000x2048, .f32⟩ : BufTy).Contents (Elt Ideal))
    (x1 : (⟨Cert.ReferenceIdeal.S2x1600000, .i32⟩ : BufTy).Contents (Elt Ideal))
    (x2 : (⟨Cert.ReferenceIdeal.S2048x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))

/-- The first layer before its rectifier: gather at the wrapped sources, scale by the edge norm, scatter-add at the
    targets, add the bias. -/
theorem agg_layer1
    (h28 : V (Proc.devRef .tc main_v28) = Cert.ReferenceIdeal.Read.val_main_v0 (F := Ideal) x0 x2)
    (h5 : V (Proc.devRef .tc main_v5) = Cert.ReferenceIdeal.Read.val_main_v4 (F := Ideal) x1)
    (h6 : V (Proc.devRef .tc main_v6) = Cert.ReferenceIdeal.Read.val_main_v7 (F := Ideal) x1)
    (h27 : V (Proc.devRef .tc main_v27) = Cert.ReferenceIdeal.Read.val_main_v35 (F := Ideal) x1)
    (h3 : V (Proc.devRef .tc main_arg3) = x3) :
    StableHlo.after (hostOps1 (F := Ideal)) V (Proc.devRef .tc main_v43)
      = Cert.ReferenceIdeal.Read.val_main_v43 (F := Ideal) x0 x1 x2 x3 := by
  after_results_simp
  rw [h28, h5, h6, h27, h3, gatherRows_eq, scatterRows_eq]
  unfold Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_cst_6 Cert.ReferenceIdeal.Read.val_main_v37 Cert.ReferenceIdeal.Read.val_main_v36 Cert.ReferenceIdeal.Read.val_main_v34 Cert.ReferenceIdeal.Read.val_main_v33 Cert.ReferenceIdeal.Read.val_main_v32 Cert.ReferenceIdeal.Read.val_main_v31 Cert.ReferenceIdeal.Read.val_main_v30 Cert.ReferenceIdeal.Read.val_main_c_5 Cert.ReferenceIdeal.Read.val_main_v29 Cert.ReferenceIdeal.Read.val_main_v28 Cert.ReferenceIdeal.Read.val_main_c_4
  with_reducible rfl

/-- The first layer: the kernel program's host operations between its first and second kernel regions compute
    the reference's first layer from the first region's product. -/
theorem layer1
    (h28 : V (Proc.devRef .tc main_v28) = Cert.ReferenceIdeal.Read.val_main_v0 (F := Ideal) x0 x2)
    (h5 : V (Proc.devRef .tc main_v5) = Cert.ReferenceIdeal.Read.val_main_v4 (F := Ideal) x1)
    (h6 : V (Proc.devRef .tc main_v6) = Cert.ReferenceIdeal.Read.val_main_v7 (F := Ideal) x1)
    (h27 : V (Proc.devRef .tc main_v27) = Cert.ReferenceIdeal.Read.val_main_v35 (F := Ideal) x1)
    (h3 : V (Proc.devRef .tc main_arg3) = x3) :
    StableHlo.after (hostOps1_1 (F := Ideal)) (StableHlo.after (hostOps1 (F := Ideal)) V) (Proc.devRef .tc main_v44)
      = Cert.ReferenceIdeal.Read.val_main_v44 (F := Ideal) x0 x1 x2 x3 := by
  rw [relu_layer1, agg_layer1 V x0 x1 x2 x3 h28 h5 h6 h27 h3]
  unfold Cert.ReferenceIdeal.Read.val_main_v44 Cert.ReferenceIdeal.Read.val_main_call0_v0 Cert.ReferenceIdeal.Read.val_main_call0_cst
  with_reducible rfl

/-- The second layer before its rectifier. -/
theorem agg_layer2
    (h45 : V (Proc.devRef .tc main_v45) = Cert.ReferenceIdeal.Read.val_main_v45 (F := Ideal) x0 x1 x2 x3 x4)
    (h5 : V (Proc.devRef .tc main_v5) = Cert.ReferenceIdeal.Read.val_main_v4 (F := Ideal) x1)
    (h6 : V (Proc.devRef .tc main_v6) = Cert.ReferenceIdeal.Read.val_main_v7 (F := Ideal) x1)
    (h27 : V (Proc.devRef .tc main_v27) = Cert.ReferenceIdeal.Read.val_main_v35 (F := Ideal) x1)
    (hb : V (Proc.devRef .tc main_arg5) = x5) :
    StableHlo.after (hostOps2 (F := Ideal)) V (Proc.devRef .tc main_v60)
      = Cert.ReferenceIdeal.Read.val_main_v88 (F := Ideal) x0 x1 x2 x3 x4 x5 := by
  after_results_simp
  rw [h45, h5, h6, h27, hb, gatherRows_eq, scatterRows_eq]
  unfold Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_v83 Cert.ReferenceIdeal.Read.val_main_cst_15 Cert.ReferenceIdeal.Read.val_main_v82 Cert.ReferenceIdeal.Read.val_main_v81 Cert.ReferenceIdeal.Read.val_main_v79 Cert.ReferenceIdeal.Read.val_main_v78 Cert.ReferenceIdeal.Read.val_main_v77 Cert.ReferenceIdeal.Read.val_main_v76 Cert.ReferenceIdeal.Read.val_main_v75 Cert.ReferenceIdeal.Read.val_main_c_14 Cert.ReferenceIdeal.Read.val_main_v74 Cert.ReferenceIdeal.Read.val_main_v73 Cert.ReferenceIdeal.Read.val_main_c_13
  rw [src_again, dst_again, norm_again]

/-- The second layer: the host operations between the second and third kernel regions compute the reference's second
    layer from the second region's product. -/
theorem layer2
    (h45 : V (Proc.devRef .tc main_v45) = Cert.ReferenceIdeal.Read.val_main_v45 (F := Ideal) x0 x1 x2 x3 x4)
    (h5 : V (Proc.devRef .tc main_v5) = Cert.ReferenceIdeal.Read.val_main_v4 (F := Ideal) x1)
    (h6 : V (Proc.devRef .tc main_v6) = Cert.ReferenceIdeal.Read.val_main_v7 (F := Ideal) x1)
    (h27 : V (Proc.devRef .tc main_v27) = Cert.ReferenceIdeal.Read.val_main_v35 (F := Ideal) x1)
    (hb : V (Proc.devRef .tc main_arg5) = x5) :
    StableHlo.after (hostOps2_1 (F := Ideal)) (StableHlo.after (hostOps2 (F := Ideal)) V) (Proc.devRef .tc main_v61)
      = Cert.ReferenceIdeal.Read.val_main_v89 (F := Ideal) x0 x1 x2 x3 x4 x5 := by
  rw [relu_layer2, agg_layer2 V x0 x1 x2 x3 x4 x5 h45 h5 h6 h27 hb]
  unfold Cert.ReferenceIdeal.Read.val_main_v89 Cert.ReferenceIdeal.Read.val_main_call1_v0 Cert.ReferenceIdeal.Read.val_main_call1_cst
  with_reducible rfl

end Layers

/-! ## The last host operation -/

/-- The last host operation reshapes the mean row [1, 64] to [64]. -/
theorem last (V : Valuation τ sig (Elt Ideal)) :
    StableHlo.after (hostOps3 (F := Ideal)) V (Proc.devRef .tc main_v63)
      = shapeCast S64 (V (Proc.devRef .tc main_v62)) shapeCasts_S1x64_S64 := by
  after_results
  rfl

end Cert.KernelIdeal.Chains

end
-- ==== Proof.KI.Bridge.lean ====
/-
  The kernel program's result is the reference's result, boundary by boundary.

  At the exact instance the contents of the kernel program's buffers at each boundary of @main are the reference's
  stages of the same arguments: after the first host stretch the edges' sources, targets and norms; after region 0
  the first dense product (its row blocks tile the product of the whole arrays); after the next stretches the first
  layer's output; after region 1 the second dense product; then the second layer's output; after region 2 the
  column sums of its five row blocks added up and multiplied by 1/50000, which is the reference's column sum of the
  whole array divided by 50000; and the last reshape.  A buffer that an item does not write keeps its contents, so
  the indices and norms computed once by the kernel program serve both layers, where the reference computes them
  again by the same operations.
-/
import proofs.«176339_j67035849556597_1_alg».proof.Proof.KI.Run
import proofs.«176339_j67035849556597_1_alg».proof.Proof.KI.Val0
import proofs.«176339_j67035849556597_1_alg».proof.Proof.KI.Val1
import proofs.«176339_j67035849556597_1_alg».proof.Proof.KI.MeanLaw
import proofs.«176339_j67035849556597_1_alg».proof.Proof.KI.Chains
import proofs.«176339_j67035849556597_1_alg».proof.Proof.Gen.ReferenceIdeal.Read
import Idealize.ShloMosaic.Lib.ValueIdx

set_option maxRecDepth 16384

noncomputable section

namespace Cert.KernelIdeal.Bridge

open Cert.KernelIdeal Cert.KernelIdeal.Gen Cert.KernelIdeal.Run
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-! ## Buffers that an item does not write keep their contents -/

theorem W1_keep (r : Ref sig .tc) (h : r ∉ hostOps0_W) : W1 m c (Proc.devRef .tc r) = m ((c : Thread nD τ).loc r) :=
  StableHlo.after_of_writes_sub hostOps0 _ hostOps0_writes h
theorem W4_keep (r : Ref sig .tc) (h1 : r ∉ hostOps1_W) (h11 : r ∉ hostOps1_1_W) :
    W4 m c (Proc.devRef .tc r) = W2 m c (Proc.devRef .tc r) :=
  (StableHlo.after_of_writes_sub hostOps1_1 _ hostOps1_1_writes h11).trans (StableHlo.after_of_writes_sub hostOps1 _ hostOps1_writes h1)
theorem W7_keep (r : Ref sig .tc) (h2 : r ∉ hostOps2_W) (h21 : r ∉ hostOps2_1_W) :
    W7 m c (Proc.devRef .tc r) = W5 m c (Proc.devRef .tc r) :=
  (StableHlo.after_of_writes_sub hostOps2_1 _ hostOps2_1_writes h21).trans (StableHlo.after_of_writes_sub hostOps2 _ hostOps2_writes h2)

/-- The mean-pool region's row-block window is at block row `t`, block column 0. -/
theorem idx_facts2 : ∀ t : Fin cfg2.N, win2_0.index t (0 : Fin 2) = t.val ∧ win2_0.index t (1 : Fin 2) = 0 :=
  (by decide +kernel : ∀ t : Fin grid2.N, _)

/-- Entry (r, q) of the block the mean-pool region reads at point `t` is entry (10000·t + r, q) of its input array. -/
theorem blk2_entry (V : (c : Dev nD) → (b : Ref sig .tc) → Buf (Elt Ideal) ((c : Thread nD τ).loc b)) (t : Fin cfg2.N)
    (r : Fin 10000) (q : Fin 64) (h : 10000 * t.val + r.val < 50000) :
    R2.iblk2 V c 0 t (ix2 r q) = V c main_v61 (ix2 ⟨10000 * t.val + r.val, h⟩ q) := by
  obtain ⟨e0, e1⟩ := idx_facts2 t
  show V c main_v61 (((cfg2.win 0).blk t).view.emb (ix2 r q)) = V c main_v61 (ix2 ⟨10000 * t.val + r.val, h⟩ q)
  refine congrArg _ ?_
  funext a; apply Fin.ext
  match a with
  | ⟨0, _⟩ => show win2_0.index t (0 : Fin 2) * 10000 + 1 * r.val = 10000 * t.val + r.val; omega
  | ⟨1, _⟩ => show win2_0.index t (1 : Fin 2) * 64 + 1 * q.val = q.val; omega

/-- The five row blocks the mean-pool region reads, as a family over `Fin 5`. -/
def blocks2 (V : (c : Dev nD) → (b : Ref sig .tc) → Buf (Elt Ideal) ((c : Thread nD τ).loc b)) (t : Fin 5) : Vec Ideal S10000x64 .f32 :=
  R2.iblk2 V c 0 ⟨t.val, by rw [show cfg2.N = 5 from N_2]; exact t.isLt⟩

/-- The region's accumulator is the law's accumulator over those blocks. -/
theorem acc_eq (V : (c : Dev nD) → (b : Ref sig .tc) → Buf (Elt Ideal) ((c : Thread nD τ).loc b)) :
    ∀ (n : ℕ) (h : n < cfg2.N) (h' : n < 5), R2.acc2 V c n h = MeanLaw.accOf (blocks2 c V) n h'
  | 0, h, h' => rfl
  | n + 1, h, h' => by
    show k2_pay2 (R2.acc2 V c n (Nat.lt_of_succ_lt h)) (R2.iblk2 V c 0 ⟨n + 1, h⟩) = k2_pay2 (MeanLaw.accOf (blocks2 c V) n (Nat.lt_of_succ_lt h')) (blocks2 c V ⟨n + 1, h'⟩)
    rw [acc_eq V n (Nat.lt_of_succ_lt h) (Nat.lt_of_succ_lt h')]
    rfl

/-! ## The kernel program's buffers, boundary by boundary, as the reference's stages -/

section Stages

set_option quotPrecheck false

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)

/-- A buffer written before region 0 and by nothing later, read at region 2's entry, is what the first stretch left. -/
theorem W5_of_W1 (r : Ref sig .tc) (h0 : ∀ w, Pipeline.arrRef spec0 w ≠ r) (h1 : r ∉ hostOps1_W) (h11 : r ∉ hostOps1_1_W)
    (ha : ∀ w, Pipeline.arrRef spec1 w ≠ r) : W5 m c (Proc.devRef .tc r) = W1 m c (Proc.devRef .tc r) :=
  (W5_of_ne m c r ha).trans ((W4_keep m c r h1 h11).trans (W2_of_ne m c r h0))

theorem s1_src : W1 m c (Proc.devRef .tc main_v5) = Cert.ReferenceIdeal.Read.val_main_v4 (F := Ideal) a1 :=
  Chains.pre0_src (W0 m c) a1 rfl
theorem s1_dst : W1 m c (Proc.devRef .tc main_v6) = Cert.ReferenceIdeal.Read.val_main_v7 (F := Ideal) a1 :=
  Chains.pre0_dst (W0 m c) a1 rfl
theorem s1_norm : W1 m c (Proc.devRef .tc main_v27) = Cert.ReferenceIdeal.Read.val_main_v35 (F := Ideal) a1 :=
  Chains.pre0_norm (W0 m c) a1 rfl

/-- Region 0 leaves the first layer's dense product. -/
theorem s2_prod : W2 m c (Proc.devRef .tc main_v28) = Cert.ReferenceIdeal.Read.val_main_v0 (F := Ideal) a0 a2 := by
  refine (W2_arr m c 2).trans ((R0.final (V1 m) c).trans ?_)
  show R0.G (W1 m c (Proc.devRef .tc main_arg0)) (W1 m c (Proc.devRef .tc main_arg2)) = _
  rw [W1_keep m c main_arg0 (by decide), W1_keep m c main_arg2 (by decide)]
  rfl

/-- The first layer's output after aggregation, bias and rectifier. -/
theorem s4_h1 : W4 m c (Proc.devRef .tc main_v44) = Cert.ReferenceIdeal.Read.val_main_v44 (F := Ideal) a0 a1 a2 a3 :=
  Chains.layer1 (W2 m c) a0 a1 a2 a3 (s2_prod m c)
    ((W2_of_ne m c main_v5 (by decide)).trans (s1_src m c))
    ((W2_of_ne m c main_v6 (by decide)).trans (s1_dst m c))
    ((W2_of_ne m c main_v27 (by decide)).trans (s1_norm m c))
    ((W2_of_ne m c main_arg3 (by decide)).trans (W1_keep m c main_arg3 (by decide)))

/-- Region 1 leaves the second layer's dense product. -/
theorem s5_prod : W5 m c (Proc.devRef .tc main_v45) = Cert.ReferenceIdeal.Read.val_main_v45 (F := Ideal) a0 a1 a2 a3 a4 := by
  refine (W5_arr m c 2).trans ((R1.final (V4 m) c).trans ?_)
  show R1.G (W4 m c (Proc.devRef .tc main_v44)) (W4 m c (Proc.devRef .tc main_arg4)) = _
  rw [s4_h1 m c, W4_keep m c main_arg4 (by decide) (by decide), W2_of_ne m c main_arg4 (by decide), W1_keep m c main_arg4 (by decide)]
  rfl

/-- The second layer's output after aggregation, bias and rectifier. -/
theorem s7_h2 : W7 m c (Proc.devRef .tc main_v61) = Cert.ReferenceIdeal.Read.val_main_v89 (F := Ideal) a0 a1 a2 a3 a4 a5 :=
  Chains.layer2 (W5 m c) a0 a1 a2 a3 a4 a5 (s5_prod m c)
    ((W5_of_W1 m c main_v5 (by decide) (by decide) (by decide) (by decide)).trans (s1_src m c))
    ((W5_of_W1 m c main_v6 (by decide) (by decide) (by decide) (by decide)).trans (s1_dst m c))
    ((W5_of_W1 m c main_v27 (by decide) (by decide) (by decide) (by decide)).trans (s1_norm m c))
    ((W5_of_W1 m c main_arg5 (by decide) (by decide) (by decide) (by decide)).trans (W1_keep m c main_arg5 (by decide)))

/-- THE RESULT: the kernel program's result buffer ends holding the reference's last stage of the arguments. -/
theorem s9_result : W9 m c (Proc.devRef .tc main_v63) = Cert.ReferenceIdeal.Read.val_main_v92 (F := Ideal) a0 a1 a2 a3 a4 a5 := by
  have h8 : W8 m c (Proc.devRef .tc main_v62) = k2_pay3 (F := Ideal) (MeanLaw.accOf (blocks2 c (V7 m)) 4 (by decide)) := by
    refine (W8_arr m c 1).trans ((R2.arr2_out (V7 m) c).trans ?_)
    show k2_pay3 (R2.acc2 (V7 m) c 4 R2.four_lt_N2) = _
    rw [acc_eq c (V7 m) 4 R2.four_lt_N2 (by decide)]
  refine (Chains.last (W8 m c)).trans ?_
  rw [h8]
  refine (MeanLaw.mean_law (V7 m c main_v61) (blocks2 c (V7 m))
    (fun t r q => blk2_entry c (V7 m) ⟨t.val, by rw [show cfg2.N = 5 from N_2]; exact t.isLt⟩ r q (by have h1 := t.isLt; have h2 := r.isLt; show 10000 * t.val + r.val < 50000; omega))
    Cert.ReferenceIdeal.Gen.reducesTo_S50000x64_S64_d0 Cert.ReferenceIdeal.Gen.h_S_ Cert.ReferenceIdeal.Gen.bcast_S_S64).trans ?_
  rw [show V7 m c main_v61 = _ from s7_h2 m c]
  rfl

end Stages

end Cert.KernelIdeal.Bridge

end
-- ==== Proof.lean ====
/-
  The certificate of a two-layer graph convolution with a mean pool: the kernel program against its reference.

  Both programs compute, for a node-feature array x, an edge list, and two weight matrices with biases,
      h₁ = relu(Â (x W₁) + b₁),   h₂ = relu(Â (h₁ W₂) + b₂),   result = mean over the nodes of h₂,
  where Â gathers rows by the edges' sources, scales them by the edges' norms and scatter-adds them into the edges'
  targets.  The gathers, scalings, scatter-adds, biases and rectifiers are the same host operations in both programs.
  The kernel program differs in three places: each dense product is computed by a kernel region a block of rows at a
  time (the blocks tile the result, and a block's rows are rows of the whole product); and the mean is computed by a
  kernel region that adds the column sums of five row blocks into an accumulator and multiplies by the constant
  named 1/50000, where the reference divides the column sums of the whole array by 50000.  On the extended reals a
  finite sum may be regrouped freely and the quotient by 50000 is the product with 1/50000 at every value, so the
  two programs end with equal results at every input; the precondition is not used.

  The three frames: each kernel region's body is run on its staging buffers (the products' bodies read two whole
  blocks and store one; the mean's body carries its accumulator in a scratch buffer from point to point), the
  regions and the host stretches are chained as segments of @main, and the final memory is read at the last
  boundary's contents, where every argument array is as launched.  The reference is a line of host operations.
-/
import proofs.«176339_j67035849556597_1_alg».proof.Defs
import proofs.«176339_j67035849556597_1_alg».proof.Proof.Gen.Kernel
import proofs.«176339_j67035849556597_1_alg».proof.Proof.Gen.Kernel.Skeleton
import proofs.«176339_j67035849556597_1_alg».proof.Proof.Gen.Kernel.Launch
import proofs.«176339_j67035849556597_1_alg».proof.Proof.Gen.Kernel.Regions
import proofs.«176339_j67035849556597_1_alg».proof.Proof.Gen.Kernel.Points
import proofs.«176339_j67035849556597_1_alg».proof.Proof.Gen.KernelIdeal
import proofs.«176339_j67035849556597_1_alg».proof.Proof.Gen.KernelIdeal.Skeleton
import proofs.«176339_j67035849556597_1_alg».proof.Proof.Gen.KernelIdeal.Launch
import proofs.«176339_j67035849556597_1_alg».proof.Proof.Gen.KernelIdeal.Regions
import proofs.«176339_j67035849556597_1_alg».proof.Proof.Gen.KernelIdeal.Points
import proofs.«176339_j67035849556597_1_alg».proof.Proof.Gen.ReferenceIdeal
import proofs.«176339_j67035849556597_1_alg».proof.Proof.Gen.ReferenceIdeal.Run
import proofs.«176339_j67035849556597_1_alg».proof.Proof.Gen.ReferenceIdeal.Read
import proofs.«176339_j67035849556597_1_alg».proof.Proof.Gen.Pre_finite_inputs
import proofs.«176339_j67035849556597_1_alg».proof.Proof.K.Run
import proofs.«176339_j67035849556597_1_alg».proof.Proof.KI.Bridge
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_k : Cert.frame_Kernel := fun m ρ _ => Cert.Kernel.Run.frame (F := Bits) m ρ

/-- So does its idealization. -/
theorem frame_ki : Cert.frame_KernelIdeal := fun m ρ _ => Cert.KernelIdeal.Run.frame (F := Ideal) m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mean's reciprocal is named, and denotes 1/50000. -/
theorem preserves : Cert.preserves_Kernel_KernelIdeal :=
  IdealRules.named_const.statement Cert.KernelIdeal.κ "inv_50000" .f32 0x37A7C5AC#32 ((1 / 50000 : ℝ) : EReal) rfl

/-- From memories agreeing on the arguments both programs run to the end, and the kernel program's result buffer
    holds the reference's last stage of the arguments, which is what the reference's result buffer holds. -/
theorem algebraic : Cert.algebraic_KernelIdeal_ReferenceIdeal := by
  intro m ρ m' ρ' _ hagree
  refine ⟨fun c => Cert.KernelIdeal.Run.W9 m c (Proc.devRef .tc Cert.KernelIdeal.main_v63), ?_, ?_⟩
  · exact (θ_run Cert.KernelIdeal.defs _ _).mono (fun r h c =>
      ⟨h c _ (Cert.KernelIdeal.Run.mem_uc Cert.KernelIdeal.main_v63 (by decide)),
       (h c _ (Cert.KernelIdeal.Run.mem_uc Cert.KernelIdeal.main_arg0 (by decide))).trans (Cert.KernelIdeal.Run.W9_main_arg0 m c),
       (h c _ (Cert.KernelIdeal.Run.mem_uc Cert.KernelIdeal.main_arg1 (by decide))).trans (Cert.KernelIdeal.Run.W9_main_arg1 m c),
       (h c _ (Cert.KernelIdeal.Run.mem_uc Cert.KernelIdeal.main_arg2 (by decide))).trans (Cert.KernelIdeal.Run.W9_main_arg2 m c),
       (h c _ (Cert.KernelIdeal.Run.mem_uc Cert.KernelIdeal.main_arg3 (by decide))).trans (Cert.KernelIdeal.Run.W9_main_arg3 m c),
       (h c _ (Cert.KernelIdeal.Run.mem_uc Cert.KernelIdeal.main_arg4 (by decide))).trans (Cert.KernelIdeal.Run.W9_main_arg4 m c),
       (h c _ (Cert.KernelIdeal.Run.mem_uc Cert.KernelIdeal.main_arg5 (by decide))).trans (Cert.KernelIdeal.Run.W9_main_arg5 m c)⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v92_eq, (hagree c).1, (hagree c).2.1, (hagree c).2.2.1, (hagree c).2.2.2.1,
      (hagree c).2.2.2.2.1, (hagree c).2.2.2.2.2]
    exact (Cert.KernelIdeal.Bridge.s9_result m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
